-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) (main_arg2 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1x1 : Shape := ⟨2, ![1, 1]⟩
abbrev S512x128 : Shape := ⟨2, ![512, 128]⟩
abbrev S512x1 : Shape := ⟨2, ![512, 1]⟩
abbrev S1x512 : Shape := ⟨2, ![1, 512]⟩
abbrev S128x512 : Shape := ⟨2, ![128, 512]⟩
abbrev S512x512 : Shape := ⟨2, ![512, 512]⟩
abbrev S512 : Shape := ⟨1, ![512]⟩
abbrev S1 : Shape := ⟨1, ![1]⟩

abbrev nBuf : Space → Nat
  | .hbm => 34
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192, .i32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x128, .f32⟩
  | .hbm, ⟨22, _⟩ => ⟨S8192x128, .f32⟩
  | .hbm, ⟨23, _⟩ => ⟨S8192x1, .i32⟩
  | .hbm, ⟨24, _⟩ => ⟨S1x8192, .i32⟩
  | .hbm, ⟨25, _⟩ => ⟨S1x1, .f32⟩
  | .hbm, ⟨26, _⟩ => ⟨S1x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1, .i32⟩
  | .local _ .vmem, ⟨9, _⟩ => ⟨S512x1, .i32⟩
  | .local _ .vmem, ⟨10, _⟩ => ⟨S1x512, .i32⟩
  | .local _ .vmem, ⟨11, _⟩ => ⟨S1x512, .i32⟩
  | .local _ .vmem, ⟨12, _⟩ => ⟨S1x1, .f32⟩
  | .local _ .vmem, ⟨13, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  bitsLt_bf16_f32 : FTy.bits .bf16 < FTy.bits .f32
  transposes_S512x128_p1_0_S128x512 : S512x128.Transposes [1, 0] S128x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S8192x128.size a
  hwx0_2 : ∀ i : grid0.Coords, EltTy.bits .f32 = 32 ∨ (Rect.block (s := S8192x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S8192x128.size a
  hwx0_3 : ∀ i : grid0.Coords, EltTy.bits .f32 = 32 ∨ (Rect.block (s := S8192x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .i32 = 32 ∨ (Rect.block (s := S8192x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .i32 = 32 ∨ (Rect.block (s := S1x8192) S1x512.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_v4) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12_0) S1x1.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12_1) S1x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S8192x8192 : Shape := ⟨2, ![8192, 8192]⟩
abbrev S1x8192 : Shape := ⟨2, ![1, 8192]⟩

abbrev nBuf : Space → Nat
  | .hbm => 60
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192, .i32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x128, .f32⟩
  | .hbm, ⟨22, _⟩ => ⟨S8192x128, .f32⟩
  | .hbm, ⟨23, _⟩ => ⟨S8192x8192, .f32⟩
  | .hbm, ⟨24, _⟩ => ⟨S8192x1, .i32⟩
  | .hbm, ⟨25, _⟩ => ⟨S1x8192, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .i1⟩
  | .hbm, ⟨30, _⟩ => ⟨S8192x8192, .i1⟩
  | .hbm, ⟨31, _⟩ => ⟨S8192x8192, .i32⟩
  | .hbm, ⟨32, _⟩ => ⟨S_, .i32⟩
  | .hbm, ⟨33, _⟩ => ⟨S8192x8192, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S_, .i1⟩
  | .hbm, ⟨38, _⟩ => ⟨S8192x8192, .i1⟩
  | .hbm, ⟨39, _⟩ => ⟨S8192x8192, .i1⟩
  | .hbm, ⟨40, _⟩ => ⟨S8192x8192, .i1⟩
  | .hbm, ⟨41, _⟩ => ⟨S8192x8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192x8192, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_call2_v0 : Ref sig .tc := ⟨.hbm, 31, rfl⟩
abbrev main_call2_c : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_c_0 : Ref sig .tc := ⟨.hbm, 37, rfl⟩
abbrev main_call2_v5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_cst_2 : Ref sig .tc := ⟨.hbm, 44, rfl⟩
abbrev main_v21 : Ref sig .tc := ⟨.hbm, 45, rfl⟩
abbrev main_v22 : Ref sig .tc := ⟨.hbm, 46, rfl⟩
abbrev main_cst_3 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_4 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  transposes_S8192x8192_S8192x8192_1_0 : S8192x8192.Transposes [1, 0] S8192x8192
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.Kernel.Body.lean ====
/-
  The kernel body run once per control case. The body resets its two one-element accumulators at the first grid
  point only (both grid coordinates zero) and adds a tile's two totals to them at every point; so there are two
  cases: the first point (reset, then add) and every other point (add to what the point before left).
-/
import proofs.«125551_j8486855377129_1_alg».proof.Proof.Gen.Kernel.Launch
import proofs.«125551_j8486855377129_1_alg».proof.Proof.Gen.Kernel.Skeleton
import proofs.«125551_j8486855377129_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

/-- The reset's condition from the grid coordinates: both are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first of the 256 points only. -/
theorem hcond0 : ∀ t : Fin cfg0.N, cond0 (grid0.coords t) ↔ t.val % 256 = 0 :=
  (by decide +kernel : ∀ t : Fin grid0.N, cond0 (grid0.coords t) ↔ t.val % 256 = 0)

set_option maxHeartbeats 1000000 in
/-- The first point: the accumulators hold anything; the body zeroes them and adds the tile's totals. The pieces each
    accumulator ends with are found by the run. -/
noncomputable def runFirst (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S512x1 .i32) (harg6 : arg6.IsWhole) (arg7 : Memref sig .tc .vmem S1x512 .i32) (harg7 : arg7.IsWhole)
    (arg8 : Memref sig .tc .vmem S1x1 .f32) (harg8 : arg8.IsWhole) (arg9 : Memref sig .tc .vmem S1x1 .f32) (harg9 : arg9.IsWhole)
    (hc0 : cond0 i)
    (x0 x1 x2 x3 : Vec F S512x128 .f32) (x4 : Vec F S512x1 .i32) (x5 : Vec F S1x512 .i32) :
    { L : List (View.Piece (Elt F) S1x1 .f32) × List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L.1)
                ∗ (∃ f, arg9.view.loc (c : Thread nD τ) ↦[arg9.view.set]{fullShare} arg9.view.writes (Elt F) f L.2)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨⟨?_, ?_⟩, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

set_option maxHeartbeats 1000000 in
/-- Every later point: the accumulators hold what the point before left (`xo8`, `xo9`); the body adds the tile's totals. -/
noncomputable def runRest (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S512x1 .i32) (harg6 : arg6.IsWhole) (arg7 : Memref sig .tc .vmem S1x512 .i32) (harg7 : arg7.IsWhole)
    (arg8 : Memref sig .tc .vmem S1x1 .f32) (harg8 : arg8.IsWhole) (arg9 : Memref sig .tc .vmem S1x1 .f32) (harg9 : arg9.IsWhole)
    (hc0 : ¬cond0 i)
    (x0 x1 x2 x3 : Vec F S512x128 .f32) (x4 : Vec F S512x1 .i32) (x5 : Vec F S1x512 .i32) (xo8 xo9 : Vec F S1x1 .f32) :
    { L : List (View.Piece (Elt F) S1x1 .f32) × List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare xo8 ∗ owns (c : Thread nD τ) arg9 fullShare xo9
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L.1)
                ∗ (∃ f, arg9.view.loc (c : Thread nD τ) ↦[arg9.view.set]{fullShare} arg9.view.writes (Elt F) f L.2)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨⟨?_, ?_⟩, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

/-- One staging buffer of each accumulator, through which its contents are stated. -/
abbrev VO6 : View sig .tc .vmem S1x1 .f32 := (Memref.whole cc0_stg6_0 : Memref sig .tc .vmem S1x1 .f32).view
abbrev VO7 : View sig .tc .vmem S1x1 .f32 := (Memref.whole cc0_stg7_0 : Memref sig .tc .vmem S1x1 .f32).view

end Cert.Kernel.Body

end
-- ==== Proof.Kernel.Data.lean ====
/-
  The proof data of the one pipeline: what each window's staging buffer holds after the body at each grid point.
  The six input windows hold their blocks of the arrays the region is entered with; the two one-element accumulators hold,
  after point `n`, what the first point's run leaves (at `n = 0`) or what a later point's run leaves over the contents the
  point before left. Two windows read the rows of the first normalised array (by the grid's first and by its second
  coordinate) and two the rows of the second, so each of those arrays is lent to its two windows at half shares.
-/
import proofs.«125551_j8486855377129_1_alg».proof.Proof.Kernel.Body

set_option maxRecDepth 16384

noncomputable section

namespace Cert.Kernel.Data

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Body
variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, as the pipeline passes it, and its wholeness. -/
abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1 .f32 := win0_7.stage (cfg0.slots t 7)
abbrev hs7 (t : Fin cfg0.N) : (ms7 t).IsWhole := hstage0_7 ((cfg0.slots t 7).cast nbuf0_7)

/-- The first point's run at point `t`'s memrefs and blocks. -/
abbrev runF (c : Dev nD) (t : Fin cfg0.N) (h0 : t.val % 256 = 0) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) ((hcond0 t).mpr h0) (iblk V c 0 t) (iblk V c 1 t) (iblk V c 2 t) (iblk V c 3 t) (iblk V c 4 t) (iblk V c 5 t)

/-- A later point's run at point `t`'s memrefs and blocks, over accumulators holding `prev`. -/
abbrev runR (c : Dev nD) (t : Fin cfg0.N) (h0 : ¬t.val % 256 = 0) (prev : Vec F S1x1 .f32 × Vec F S1x1 .f32) :=
  runRest (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (fun h => h0 ((hcond0 t).mp h)) (iblk V c 0 t) (iblk V c 1 t) (iblk V c 2 t) (iblk V c 3 t) (iblk V c 4 t) (iblk V c 5 t) prev.1 prev.2

/-- The runs' pieces tile each accumulator's one element, so they cover it. -/
theorem coverF6 (c : Dev nD) (t : Fin cfg0.N) (h0 : t.val % 256 = 0) (y : S1x1.Idx) : ∃ pc ∈ (runF V c t h0).1.1, y ∈ pc.1.set :=
  View.cover_of_tiledL (runF V c t h0).1.1 S1x1.size (by sl_kernel_rfl) y
theorem coverF7 (c : Dev nD) (t : Fin cfg0.N) (h0 : t.val % 256 = 0) (y : S1x1.Idx) : ∃ pc ∈ (runF V c t h0).1.2, y ∈ pc.1.set :=
  View.cover_of_tiledL (runF V c t h0).1.2 S1x1.size (by sl_kernel_rfl) y
theorem coverR6 (c : Dev nD) (t : Fin cfg0.N) (h0 : ¬t.val % 256 = 0) (prev) (y : S1x1.Idx) : ∃ pc ∈ (runR V c t h0 prev).1.1, y ∈ pc.1.set :=
  View.cover_of_tiledL (runR V c t h0 prev).1.1 S1x1.size (by sl_kernel_rfl) y
theorem coverR7 (c : Dev nD) (t : Fin cfg0.N) (h0 : ¬t.val % 256 = 0) (prev) (y : S1x1.Idx) : ∃ pc ∈ (runR V c t h0 prev).1.2, y ∈ pc.1.set :=
  View.cover_of_tiledL (runR V c t h0 prev).1.2 S1x1.size (by sl_kernel_rfl) y

/-- What the first point leaves in the two accumulators: its pieces read back. -/
def outF (c : Dev nD) (t : Fin cfg0.N) (h0 : t.val % 256 = 0) : Vec F S1x1 .f32 × Vec F S1x1 .f32 :=
  (VO6.read (Elt F) (VO6.writes (Elt F) VO6.junk (runF V c t h0).1.1), VO7.read (Elt F) (VO7.writes (Elt F) VO7.junk (runF V c t h0).1.2))

/-- What a later point leaves in them, over `prev`. -/
def outR (c : Dev nD) (t : Fin cfg0.N) (h0 : ¬t.val % 256 = 0) (prev : Vec F S1x1 .f32 × Vec F S1x1 .f32) : Vec F S1x1 .f32 × Vec F S1x1 .f32 :=
  (VO6.read (Elt F) (VO6.writes (Elt F) VO6.junk (runR V c t h0 prev).1.1), VO7.read (Elt F) (VO7.writes (Elt F) VO7.junk (runR V c t h0 prev).1.2))

/-- THE ACCUMULATION: the accumulators after the body at position `n`. -/
def outsAt (c : Dev nD) : (n : ℕ) → n < cfg0.N → Vec F S1x1 .f32 × Vec F S1x1 .f32
  | 0, hn => outF V c ⟨0, hn⟩ (Nat.zero_mod _)
  | n + 1, hn =>
    if h0 : (n + 1) % 256 = 0 then outF V c ⟨n + 1, hn⟩ h0
    else outR V c ⟨n + 1, hn⟩ h0 (outsAt c n (Nat.lt_of_succ_lt hn))

theorem outsAt_first (c : Dev nD) (t : Fin cfg0.N) (h0 : t.val % 256 = 0) : outsAt V c t.val t.isLt = outF V c t h0 := by
  obtain ⟨n, hn⟩ := t
  cases n with
  | zero => exact rfl
  | succ n => exact (dif_pos h0).trans rfl

theorem outsAt_rest (c : Dev nD) (t : Fin cfg0.N) (h0 : ¬t.val % 256 = 0) :
    outsAt V c t.val t.isLt = outR V c t h0 (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
    | ⟨7, _⟩ => (outsAt V c t.val t.isLt).2
  Φ _ := Pipeline.ΦA spec0 c
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
    | ⟨6, _⟩ => fullShare
    | ⟨7, _⟩ => fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = (outsAt V c t.val t.isLt).1 := by dsimp only [dat]
theorem after7 (c : Dev nD) (t : Fin cfg0.N) : (dat V c).after 7 t = (outsAt V c t.val t.isLt).2 := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d
theorem before5 (c : Dev nD) (t : Fin cfg0.N) (d) : (dat V c).before 5 t d = iblk V c 5 t :=
  before5_of V (dat V c) (A_eq V c 5) (after5 V c) t d

/-- At a later point an accumulator's staging buffer holds what the body left at the point before: it is written
    back after the last point only. -/
theorem before6_rest (c : Dev nD) (t : Fin cfg0.N) (h0 : ¬t.val % 256 = 0) (d) :
    (dat V c).before 6 t d = (outsAt V c (t.val - 1) (Nat.lt_of_le_of_lt (Nat.sub_le _ _) t.isLt)).1 := by
  have hN : t.val < 256 := lt_of_lt_of_eq t.isLt (show cfg0.N = 256 from N_0)
  rw [Dat.before_out_kept _ 6 rfl t (by omega) (Bool.eq_false_iff.mpr fun h => by have := (flush0_6 _).mp h; dsimp only at this; omega)
    (fun _ => rfl) (fun _ _ => rfl)]
  dsimp only [dat]
theorem before7_rest (c : Dev nD) (t : Fin cfg0.N) (h0 : ¬t.val % 256 = 0) (d) :
    (dat V c).before 7 t d = (outsAt V c (t.val - 1) (Nat.lt_of_le_of_lt (Nat.sub_le _ _) t.isLt)).2 := by
  have hN : t.val < 256 := lt_of_lt_of_eq t.isLt (show cfg0.N = 256 from N_0)
  rw [Dat.before_out_kept _ 7 rfl t (by omega) (Bool.eq_false_iff.mpr fun h => by have := (flush0_7 _).mp h; dsimp only at this; omega)
    (fun _ => rfl) (fun _ _ => rfl)]
  dsimp only [dat]

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t))

set_option maxHeartbeats 1600000 in
/-- The body at any point: the inputs' memrefs hold their blocks; the first point runs the reset case, every other the
    accumulating case over what the point before left. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6, after7]
  have hN : t.val < 256 := lt_of_lt_of_eq t.isLt (show cfg0.N = 256 from N_0)
  by_cases h0 : t.val % 256 = 0
  · rw [outsAt_first V c t h0]
    unfold outF
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runF V c t h0).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; show _ = View.read (Elt F) VO6 (VO6.writes (Elt F) VO6.junk _); exact View.read_writes_of_cover _ _ _ _ _ (coverF6 V c t h0)
    · unfold owns; iexists _; isplitr
      swap; · iexact H7
      ipureintro; show _ = View.read (Elt F) VO7 (VO7.writes (Elt F) VO7.junk _); exact View.read_writes_of_cover _ _ _ _ _ (coverF7 V c t h0)
  · rw [outsAt_rest V c t h0]
    simp only [before6_rest V c t h0, before7_rest V c t h0]
    unfold outR
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runR V c t h0 _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; show _ = View.read (Elt F) VO6 (VO6.writes (Elt F) VO6.junk _); exact View.read_writes_of_cover _ _ _ _ _ (coverR6 V c t h0 _)
    · unfold owns; iexists _; isplitr
      swap; · iexact H7
      ipureintro; show _ = View.read (Elt F) VO7 (VO7.writes (Elt F) VO7.junk _); exact View.read_writes_of_cover _ _ _ _ _ (coverR7 V c t h0 _)

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Data

end
-- ==== Proof.Kernel.Run.lean ====
/-
  The run of @main: four stretches of host operations (two row normalisations, the labels reshaped as a column and as a
  row), the kernel region, and the closing host operations (the two totals made scalars and combined). Between two
  items the core holds every unscoped buffer whole at a named valuation. At the region's entry the two normalised
  arrays are each split in two halves, one per window that reads them, and at its exit the halves are joined again;
  the region's two result arrays leave at what the write-back after the last point puts there.
-/
import proofs.«125551_j8486855377129_1_alg».proof.Proof.Kernel.Data
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Body Cert.Kernel.Data
open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first array's row norms. -/
abbrev W1 : Dev nD → Valuation τ sig (Elt F) := fun c => StableHlo.after hostOps0 (W0 m ρ c)
/-- After the first array is normalised. -/
abbrev W2 : Dev nD → Valuation τ sig (Elt F) := fun c => StableHlo.after hostOps0_1 (W1 m ρ c)
/-- After the second array's row norms. -/
abbrev W3 : Dev nD → Valuation τ sig (Elt F) := fun c => StableHlo.after hostOps0_2 (W2 m ρ c)
/-- At the region's entry: the second array normalised, the labels reshaped. -/
abbrev W4 : Dev nD → Valuation τ sig (Elt F) := fun c => StableHlo.after hostOps0_3 (W3 m ρ c)
/-- The same read at the TensorCore's references. -/
abbrev V4 : (c : Dev nD) → (b : Ref sig .tc) → Buf (Elt F) ((c : Thread nD τ).loc b) := fun c b => W4 m ρ c b

/-- The two totals as the write-back after the last point leaves them. -/
abbrev outSum (c : Dev nD) := (dat (V4 m ρ) c).arrAt 6 cfg0.N
abbrev outCnt (c : Dev nD) := (dat (V4 m ρ) c).arrAt 7 cfg0.N

/-- At the region's exit: the two result arrays at the totals, every other buffer as entered. -/
def W5 (c : Dev nD) : Valuation τ sig (Elt F) :=
  Function.update (Function.update (W4 m ρ c) (Proc.devRef .tc main_v12_0) (outSum m ρ c)) (Proc.devRef .tc main_v12_1) (outCnt m ρ c)
abbrev V5 : (c : Dev nD) → (b : Ref sig .tc) → Buf (Elt F) ((c : Thread nD τ).loc b) := fun c b => W5 m ρ c b
/-- At the return. -/
abbrev W6 : Dev nD → Valuation τ sig (Elt F) := fun c => StableHlo.after hostOps1 (W5 m ρ c)

theorem W5_sum (c : Dev nD) : W5 m ρ c (Proc.devRef .tc main_v12_0) = outSum m ρ c := by
  unfold W5
  rw [Function.update_of_ne (by decide : (Proc.devRef .tc main_v12_0 : DevRef τ sig) ≠ Proc.devRef .tc main_v12_1), Function.update_self]
theorem W5_cnt (c : Dev nD) : W5 m ρ c (Proc.devRef .tc main_v12_1) = outCnt m ρ c := by
  unfold W5; rw [Function.update_self]
theorem W5_of_ne (c : Dev nD) (b : DevRef τ sig) (h0 : b ≠ Proc.devRef .tc main_v12_0) (h1 : b ≠ Proc.devRef .tc main_v12_1) :
    W5 m ρ c b = W4 m ρ c b := by
  unfold W5; rw [Function.update_of_ne h1, Function.update_of_ne h0]

/-! ## The windows' arrays and the buffers behind them -/

section Arrays

variable (V : (c : Dev nD) → (b : Ref sig .tc) → Buf (Elt F) ((c : Thread nD τ).loc b))

/-- Six distinct buffers stand behind the eight windows: windows 0 and 2 read one array, windows 1 and 3 another. -/
theorem arr_image : (Finset.univ.image (Pipeline.arrRef spec0) : Finset (Ref sig .tc))
    = {Pipeline.arrRef spec0 0, Pipeline.arrRef spec0 1, Pipeline.arrRef spec0 4, Pipeline.arrRef spec0 5, Pipeline.arrRef spec0 6, Pipeline.arrRef spec0 7} := by
  decide

theorem share0 (c : Dev nD) : (dat V c).share 0 = fullShare.left := rfl
theorem share1 (c : Dev nD) : (dat V c).share 1 = fullShare.left := rfl
theorem share2 (c : Dev nD) : (dat V c).share 2 = fullShare.right := rfl
theorem share3 (c : Dev nD) : (dat V c).share 3 = fullShare.right := rfl
theorem share4 (c : Dev nD) : (dat V c).share 4 = fullShare := rfl
theorem share5 (c : Dev nD) : (dat V c).share 5 = fullShare := rfl
theorem share6 (c : Dev nD) : (dat V c).share 6 = fullShare := rfl
theorem share7 (c : Dev nD) : (dat V c).share 7 = fullShare := rfl

/-- A buffer's points-to depends on the reference only. -/
theorem pts_congr (c : Dev nD) (V' : (b : Ref sig .tc) → Buf (Elt F) ((c : Thread nD τ).loc b)) (q : PosShare TreeShare)
    {r r' : Ref sig .tc} (h : r = r') :
    ((((c : Thread nD τ).loc r) ↦{q} V' r : sProp 𝕄)) = (((c : Thread nD τ).loc r') ↦{q} V' r') := by
  subst h; rfl

/-- The pipeline's arrays at contents read off a valuation `V'`, window by window. -/
theorem arrays_eq8 (c : Dev nD) (V' : (b : Ref sig .tc) → Buf (Elt F) ((c : Thread nD τ).loc b)) :
    ((dat V c).arrays (fun w => V' (Pipeline.arrRef spec0 w)) : sProp 𝕄) = iprop(
      (((c : Thread nD τ).loc (Pipeline.arrRef spec0 0)) ↦{fullShare.left} V' (Pipeline.arrRef spec0 0))
      ∗ (((c : Thread nD τ).loc (Pipeline.arrRef spec0 1)) ↦{fullShare.left} V' (Pipeline.arrRef spec0 1))
      ∗ (((c : Thread nD τ).loc (Pipeline.arrRef spec0 2)) ↦{fullShare.right} V' (Pipeline.arrRef spec0 2))
      ∗ (((c : Thread nD τ).loc (Pipeline.arrRef spec0 3)) ↦{fullShare.right} V' (Pipeline.arrRef spec0 3))
      ∗ (((c : Thread nD τ).loc (Pipeline.arrRef spec0 4)) ↦{fullShare} V' (Pipeline.arrRef spec0 4))
      ∗ (((c : Thread nD τ).loc (Pipeline.arrRef spec0 5)) ↦{fullShare} V' (Pipeline.arrRef spec0 5))
      ∗ (((c : Thread nD τ).loc (Pipeline.arrRef spec0 6)) ↦{fullShare} V' (Pipeline.arrRef spec0 6))
      ∗ (((c : Thread nD τ).loc (Pipeline.arrRef spec0 7)) ↦{fullShare} V' (Pipeline.arrRef spec0 7))) := by
  unfold Dat.arrays
  have hw : ∀ w : Fin cfg0.W, (((cfg0.win w).arr.view.loc (c : Thread nD τ) ↦[(cfg0.win w).arr.view.set]{(dat V c).share w} V' (Pipeline.arrRef spec0 w) : sProp 𝕄))
      = (((c : Thread nD τ).loc (Pipeline.arrRef spec0 w)) ↦{(dat V c).share w} V' (Pipeline.arrRef spec0 w)) := fun w => by
    rw [(arr_whole0 w).set_eq_univ]
  rw [bigSep_congr (fun w _ => hw w), bigSep_W0, share0, share1, share2, share3, share4, share5, share6, share7]

/-- The buffers behind the arrays, one by one. -/
theorem arrBufs_eq6 (c : Dev nD) (V' : (b : Ref sig .tc) → Buf (Elt F) ((c : Thread nD τ).loc b)) :
    (Pipeline.arrBufs (Ix := Unit) (Name := ℕ) (U := UR sig nD τ) (Lvl := ℕ) spec0 c V' : sProp 𝕄) = iprop(
      (((c : Thread nD τ).loc (Pipeline.arrRef spec0 0)) ↦{fullShare} V' (Pipeline.arrRef spec0 0))
      ∗ (((c : Thread nD τ).loc (Pipeline.arrRef spec0 1)) ↦{fullShare} V' (Pipeline.arrRef spec0 1))
      ∗ (((c : Thread nD τ).loc (Pipeline.arrRef spec0 4)) ↦{fullShare} V' (Pipeline.arrRef spec0 4))
      ∗ (((c : Thread nD τ).loc (Pipeline.arrRef spec0 5)) ↦{fullShare} V' (Pipeline.arrRef spec0 5))
      ∗ (((c : Thread nD τ).loc (Pipeline.arrRef spec0 6)) ↦{fullShare} V' (Pipeline.arrRef spec0 6))
      ∗ (((c : Thread nD τ).loc (Pipeline.arrRef spec0 7)) ↦{fullShare} V' (Pipeline.arrRef spec0 7))) := by
  unfold Pipeline.arrBufs
  rw [arr_image, bigSep_insert (by decide), bigSep_insert (by decide), bigSep_insert (by decide), bigSep_insert (by decide),
    bigSep_insert (by decide), bigSep_singleton]
  rfl

/-- ENTRY and EXIT, the arrays' part: the six buffers whole at `V'` are the pipeline's arrays at the contents `V'` gives
    each window's array — a buffer two windows read is held as its two halves. -/
theorem arrays_iff_bufs (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      ⊣⊢ (dat V c).arrays (fun w => V' (Pipeline.arrRef spec0 w)) := by
  rw [arrBufs_eq6, arrays_eq8,
    pts_congr c V' fullShare.right (by decide : Pipeline.arrRef spec0 2 = Pipeline.arrRef spec0 0),
    pts_congr c V' fullShare.right (by decide : Pipeline.arrRef spec0 3 = Pipeline.arrRef spec0 1)]
  constructor
  · iintro ⟨Ha, Hb, Hc, Hd, He, Hf⟩
    ihave Ha := (pointsTo_share (PosShare.mem_left_op_right fullShare)).1 $$ Ha
    icases Ha with ⟨Hal, Har⟩
    ihave Hb := (pointsTo_share (PosShare.mem_left_op_right fullShare)).1 $$ Hb
    icases Hb with ⟨Hbl, Hbr⟩
    isplitl [Hal]; · iexact Hal
    isplitl [Hbl]; · iexact Hbl
    isplitl [Har]; · iexact Har
    isplitl [Hbr]; · iexact Hbr
    isplitl [Hc]; · iexact Hc
    isplitl [Hd]; · iexact Hd
    isplitl [He]; · iexact He
    iexact Hf
  · iintro ⟨Hal, Hbl, Har, Hbr, Hc, Hd, He, Hf⟩
    isplitl [Hal Har]
    · iapply (pointsTo_share (PosShare.mem_left_op_right fullShare)).2
      isplitl [Hal]; · iexact Hal
      iexact Har
    isplitl [Hbl Hbr]
    · iapply (pointsTo_share (PosShare.mem_left_op_right fullShare)).2
      isplitl [Hbl]; · iexact Hbl
      iexact Hbr
    isplitl [Hc]; · iexact Hc
    isplitl [Hd]; · iexact Hd
    isplitl [He]; · iexact He
    iexact Hf

end Arrays

/-! ## The proof data family and the thread state -/

abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state: every unscoped buffer at the last valuation, the generator register at some state. -/
abbrev Tₙ (c : Dev nD) : sProp 𝕄 := iprop(StableHlo.held (c : Thread nD τ) (Pipeline.ucRefs τ sig) (W6 m ρ c) ∗ ∃ r, prngReg c r)

/-- The arrays' contents at the region's exit are the exit valuation's: an input as entered, the two results at the totals. -/
theorem exit_arrays (c : Dev nD) :
    (fun w => (dat (V4 m ρ) c).arrAt w cfg0.N) = fun w => V5 m ρ c (Pipeline.arrRef spec0 w) := by
  funext w
  match w with
  | ⟨0, _⟩ => exact ((dat (V4 m ρ) c).arrAt_in 0 rfl _).trans (W5_of_ne m ρ c (Proc.devRef .tc (Pipeline.arrRef spec0 0)) (by decide) (by decide)).symm
  | ⟨1, _⟩ => exact ((dat (V4 m ρ) c).arrAt_in 1 rfl _).trans (W5_of_ne m ρ c (Proc.devRef .tc (Pipeline.arrRef spec0 1)) (by decide) (by decide)).symm
  | ⟨2, _⟩ => exact ((dat (V4 m ρ) c).arrAt_in 2 rfl _).trans (W5_of_ne m ρ c (Proc.devRef .tc (Pipeline.arrRef spec0 2)) (by decide) (by decide)).symm
  | ⟨3, _⟩ => exact ((dat (V4 m ρ) c).arrAt_in 3 rfl _).trans (W5_of_ne m ρ c (Proc.devRef .tc (Pipeline.arrRef spec0 3)) (by decide) (by decide)).symm
  | ⟨4, _⟩ => exact ((dat (V4 m ρ) c).arrAt_in 4 rfl _).trans (W5_of_ne m ρ c (Proc.devRef .tc (Pipeline.arrRef spec0 4)) (by decide) (by decide)).symm
  | ⟨5, _⟩ => exact ((dat (V4 m ρ) c).arrAt_in 5 rfl _).trans (W5_of_ne m ρ c (Proc.devRef .tc (Pipeline.arrRef spec0 5)) (by decide) (by decide)).symm
  | ⟨6, _⟩ => exact (W5_sum m ρ c).symm
  | ⟨7, _⟩ => exact (W5_cnt m ρ c).symm

/-- Off the windows' arrays the exit valuation is the entry one. -/
theorem exit_rest (c : Dev nD) : ∀ b, b ∉ Finset.univ.image (Pipeline.arrRef spec0) → V5 m ρ c b = V4 m ρ c b := fun b hb =>
  W5_of_ne m ρ c _
    (fun e => hb (Finset.mem_image.mpr ⟨6, Finset.mem_univ _, (Proc.devRef_injective _ e).symm⟩))
    (fun e => hb (Finset.mem_image.mpr ⟨7, Finset.mem_univ _, (Proc.devRef_injective _ e).symm⟩))

/-! ## The region as a segment -/

set_option backward.isDefEq.respectTransparency.types false in
/-- The kernel region over the thread state: entered from every unscoped buffer at `W4`, left at `W5`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit : (unscopedBufs (Ix := Unit) (Name := ℕ) (U := UR sig nD τ) (Lvl := ℕ) c (V4 m ρ c) : sProp 𝕄)
        ⊢ iprop((pdats m ρ 0 c).arrays ((pdats m ρ 0 c).arrAt · 0) ∗ Pipeline.unscopedRest spec0 c (V4 m ρ c)) := by
      rw [Pipeline.unscopedBufs_split₀ cfgs (0 : Fin 1) winFacts₀0.arr_unscoped c (V4 m ρ c)]
      exact sep_mono (arrays_iff_bufs (V4 m ρ) c (V4 m ρ c)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V4 m ρ c))
        ⊢ (unscopedBufs (Ix := Unit) (Name := ℕ) (U := UR sig nD τ) (Lvl := ℕ) c (V5 m ρ c) : sProp 𝕄) := by
      rw [Pipeline.unscopedBufs_split₀ cfgs (0 : Fin 1) winFacts₀0.arr_unscoped c (V5 m ρ c)]
      refine sep_mono ?_ (Entails.of_eq ?_)
      · rw [show (fun w => (pdats m ρ 0 c).arrAt w cfg0.N) = fun w => V5 m ρ c (Pipeline.arrRef spec0 w) from exit_arrays m ρ c]
        exact (arrays_iff_bufs (V4 m ρ) c (V5 m ρ c)).2
      · unfold Pipeline.unscopedRest
        exact bigSep_congr fun b hb => by rw [exit_rest m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's six segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final memory holds every unscoped buffer at the last valuation `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-! ## No item writes an argument -/

abbrev hostOps0_W : List (Ref sig .tc) := [main_call0_v0, main_call0_cst, main_call0_v1, main_call0_v2, main_v0]
abbrev hostOps0_1_W : List (Ref sig .tc) := [main_cst, main_v1, main_v2, main_v3, main_v4]
abbrev hostOps0_2_W : List (Ref sig .tc) := [main_call1_v0, main_call1_cst, main_call1_v1, main_call1_v2, main_v5]
abbrev hostOps0_3_W : List (Ref sig .tc) := [main_cst_0, main_v6, main_v7, main_v8, main_v9, main_v10, main_v11]
abbrev hostOps1_W : List (Ref sig .tc) := [main_v13, main_v14, main_cst_1, main_v15, main_cst_2, main_v16, main_v17]

theorem hostOps0_writes : (hostOps0 : List (HloOp τ sig (Elt F))).Forall fun op => op.writes ⊆ (hostOps0_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.reshape_writes, Finset.singleton_subset_iff, List.mem_toFinset]
  refine ⟨?_, ?_, ?_, ?_, ?_⟩ <;> exact List.mem_map_of_mem (by decide)
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.reshape_writes, Finset.singleton_subset_iff, List.mem_toFinset]
  refine ⟨?_, ?_, ?_, ?_, ?_⟩ <;> exact List.mem_map_of_mem (by decide)
theorem hostOps0_2_writes : (hostOps0_2 : List (HloOp τ sig (Elt F))).Forall fun op => op.writes ⊆ (hostOps0_2_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.reshape_writes, Finset.singleton_subset_iff, List.mem_toFinset]
  refine ⟨?_, ?_, ?_, ?_, ?_⟩ <;> exact List.mem_map_of_mem (by decide)
theorem hostOps0_3_writes : (hostOps0_3 : List (HloOp τ sig (Elt F))).Forall fun op => op.writes ⊆ (hostOps0_3_W.map (Proc.devRef (τ := τ) .tc)).toFinset := by
  simp only [List.Forall, StableHlo.nullary_writes, StableHlo.unary_writes, StableHlo.binary_writes, StableHlo.reshape_writes, Finset.singleton_subset_iff, List.mem_toFinset]
  refine ⟨?_, ?_, ?_, ?_, ?_, ?_, ?_⟩ <;> exact List.mem_map_of_mem (by decide)
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.reshape_writes, Finset.singleton_subset_iff, List.mem_toFinset]
  refine ⟨?_, ?_, ?_, ?_, ?_, ?_, ?_⟩ <;> exact List.mem_map_of_mem (by decide)

/-- A buffer no host line writes and that is neither result array ends as launched. -/
theorem W6_kept (c : Dev nD) (r : Ref sig .tc) (h0 : r ∉ hostOps0_W) (h1 : r ∉ hostOps0_1_W) (h2 : r ∉ hostOps0_2_W) (h3 : r ∉ hostOps0_3_W)
    (h5 : r ∉ hostOps1_W) (ha : (Proc.devRef .tc r : DevRef τ sig) ≠ Proc.devRef .tc main_v12_0) (hb : (Proc.devRef .tc r : DevRef τ sig) ≠ Proc.devRef .tc main_v12_1) :
    W6 m ρ c (Proc.devRef .tc r) = W0 m ρ c (Proc.devRef .tc r) :=
  (StableHlo.after_of_writes_sub hostOps1 _ hostOps1_writes h5).trans <| (W5_of_ne m ρ c _ ha hb).trans <|
    (StableHlo.after_of_writes_sub hostOps0_3 _ hostOps0_3_writes h3).trans <| (StableHlo.after_of_writes_sub hostOps0_2 _ hostOps0_2_writes h2).trans <|
    (StableHlo.after_of_writes_sub hostOps0_1 _ hostOps0_1_writes h1).trans <| StableHlo.after_of_writes_sub hostOps0 _ hostOps0_writes h0

theorem W6_main_arg0 (c : Dev nD) : W6 m ρ c (Proc.devRef .tc main_arg0) = m ((c : Thread nD τ).loc main_arg0) :=
  (W6_kept m ρ c main_arg0 (by decide) (by decide) (by decide) (by decide) (by decide) (by decide) (by decide)).trans rfl
theorem W6_main_arg1 (c : Dev nD) : W6 m ρ c (Proc.devRef .tc main_arg1) = m ((c : Thread nD τ).loc main_arg1) :=
  (W6_kept m ρ c main_arg1 (by decide) (by decide) (by decide) (by decide) (by decide) (by decide) (by decide)).trans rfl
theorem W6_main_arg2 (c : Dev nD) : W6 m ρ c (Proc.devRef .tc main_arg2) = m ((c : Thread nD τ).loc main_arg2) :=
  (W6_kept m ρ c main_arg2 (by decide) (by decide) (by decide) (by decide) (by decide) (by decide) (by decide)).trans rfl

/-- THE FRAME: every weakly fair execution of @main terminates, nothing faulting, and the three argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_main m ρ)

/-- The run with the result named: the result buffer ends at the last valuation's, the arguments as launched. -/
theorem run_result : θ_run defs (onTc (τ := τ) (main (F := F))) ⟨m, fun _ => 0, ρ⟩ (fun r => ∀ c : Dev nD,
      r.2.mem ((c.tc : Thread nD τ).loc main_v17) = W6 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v17 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_main m ρ)

end Cert.Kernel.Run

end
-- ==== Proof.KernelIdeal.Body.lean ====
/-
  The kernel body run once per control case. The body resets its two one-element accumulators at the first grid
  point only (both grid coordinates zero) and adds a tile's two totals to them at every point; so there are two
  cases: the first point (reset, then add) and every other point (add to what the point before left).
-/
import proofs.«125551_j8486855377129_1_alg».proof.Proof.Gen.KernelIdeal.Launch
import proofs.«125551_j8486855377129_1_alg».proof.Proof.Gen.KernelIdeal.Skeleton
import proofs.«125551_j8486855377129_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

/-- The reset's condition from the grid coordinates: both are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first of the 256 points only. -/
theorem hcond0 : ∀ t : Fin cfg0.N, cond0 (grid0.coords t) ↔ t.val % 256 = 0 :=
  (by decide +kernel : ∀ t : Fin grid0.N, cond0 (grid0.coords t) ↔ t.val % 256 = 0)

set_option maxHeartbeats 1000000 in
/-- The first point: the accumulators hold anything; the body zeroes them and adds the tile's totals. The pieces each
    accumulator ends with are found by the run. -/
noncomputable def runFirst (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S512x1 .i32) (harg6 : arg6.IsWhole) (arg7 : Memref sig .tc .vmem S1x512 .i32) (harg7 : arg7.IsWhole)
    (arg8 : Memref sig .tc .vmem S1x1 .f32) (harg8 : arg8.IsWhole) (arg9 : Memref sig .tc .vmem S1x1 .f32) (harg9 : arg9.IsWhole)
    (hc0 : cond0 i)
    (x0 x1 x2 x3 : Vec F S512x128 .f32) (x4 : Vec F S512x1 .i32) (x5 : Vec F S1x512 .i32) :
    { L : List (View.Piece (Elt F) S1x1 .f32) × List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L.1)
                ∗ (∃ f, arg9.view.loc (c : Thread nD τ) ↦[arg9.view.set]{fullShare} arg9.view.writes (Elt F) f L.2)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨⟨?_, ?_⟩, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

set_option maxHeartbeats 1000000 in
/-- Every later point: the accumulators hold what the point before left (`xo8`, `xo9`); the body adds the tile's totals. -/
noncomputable def runRest (c : Dev nD) (i : grid0.Coords)
    (arg2 : Memref sig .tc .vmem S512x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S512x1 .i32) (harg6 : arg6.IsWhole) (arg7 : Memref sig .tc .vmem S1x512 .i32) (harg7 : arg7.IsWhole)
    (arg8 : Memref sig .tc .vmem S1x1 .f32) (harg8 : arg8.IsWhole) (arg9 : Memref sig .tc .vmem S1x1 .f32) (harg9 : arg9.IsWhole)
    (hc0 : ¬cond0 i)
    (x0 x1 x2 x3 : Vec F S512x128 .f32) (x4 : Vec F S512x1 .i32) (x5 : Vec F S1x512 .i32) (xo8 xo9 : Vec F S1x1 .f32) :
    { L : List (View.Piece (Elt F) S1x1 .f32) × List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare xo8 ∗ owns (c : Thread nD τ) arg9 fullShare xo9
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L.1)
                ∗ (∃ f, arg9.view.loc (c : Thread nD τ) ↦[arg9.view.set]{fullShare} arg9.view.writes (Elt F) f L.2)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨⟨?_, ?_⟩, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

/-- One staging buffer of each accumulator, through which its contents are stated. -/
abbrev VO6 : View sig .tc .vmem S1x1 .f32 := (Memref.whole cc0_stg6_0 : Memref sig .tc .vmem S1x1 .f32).view
abbrev VO7 : View sig .tc .vmem S1x1 .f32 := (Memref.whole cc0_stg7_0 : Memref sig .tc .vmem S1x1 .f32).view

end Cert.KernelIdeal.Body

end
-- ==== Proof.KernelIdeal.Data.lean ====
/-
  The proof data of the one pipeline: what each window's staging buffer holds after the body at each grid point.
  The six input windows hold their blocks of the arrays the region is entered with; the two one-element accumulators hold,
  after point `n`, what the first point's run leaves (at `n = 0`) or what a later point's run leaves over the contents the
  point before left. Two windows read the rows of the first normalised array (by the grid's first and by its second
  coordinate) and two the rows of the second, so each of those arrays is lent to its two windows at half shares.
-/
import proofs.«125551_j8486855377129_1_alg».proof.Proof.KernelIdeal.Body

set_option maxRecDepth 16384

noncomputable section

namespace Cert.KernelIdeal.Data

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body
variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, as the pipeline passes it, and its wholeness. -/
abbrev ms0 (t : Fin cfg0.N) : Memref sig .tc .vmem S512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1 .f32 := win0_7.stage (cfg0.slots t 7)
abbrev hs7 (t : Fin cfg0.N) : (ms7 t).IsWhole := hstage0_7 ((cfg0.slots t 7).cast nbuf0_7)

/-- The first point's run at point `t`'s memrefs and blocks. -/
abbrev runF (c : Dev nD) (t : Fin cfg0.N) (h0 : t.val % 256 = 0) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) ((hcond0 t).mpr h0) (iblk V c 0 t) (iblk V c 1 t) (iblk V c 2 t) (iblk V c 3 t) (iblk V c 4 t) (iblk V c 5 t)

/-- A later point's run at point `t`'s memrefs and blocks, over accumulators holding `prev`. -/
abbrev runR (c : Dev nD) (t : Fin cfg0.N) (h0 : ¬t.val % 256 = 0) (prev : Vec F S1x1 .f32 × Vec F S1x1 .f32) :=
  runRest (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (fun h => h0 ((hcond0 t).mp h)) (iblk V c 0 t) (iblk V c 1 t) (iblk V c 2 t) (iblk V c 3 t) (iblk V c 4 t) (iblk V c 5 t) prev.1 prev.2

/-- The runs' pieces tile each accumulator's one element, so they cover it. -/
theorem coverF6 (c : Dev nD) (t : Fin cfg0.N) (h0 : t.val % 256 = 0) (y : S1x1.Idx) : ∃ pc ∈ (runF V c t h0).1.1, y ∈ pc.1.set :=
  View.cover_of_tiledL (runF V c t h0).1.1 S1x1.size (by sl_kernel_rfl) y
theorem coverF7 (c : Dev nD) (t : Fin cfg0.N) (h0 : t.val % 256 = 0) (y : S1x1.Idx) : ∃ pc ∈ (runF V c t h0).1.2, y ∈ pc.1.set :=
  View.cover_of_tiledL (runF V c t h0).1.2 S1x1.size (by sl_kernel_rfl) y
theorem coverR6 (c : Dev nD) (t : Fin cfg0.N) (h0 : ¬t.val % 256 = 0) (prev) (y : S1x1.Idx) : ∃ pc ∈ (runR V c t h0 prev).1.1, y ∈ pc.1.set :=
  View.cover_of_tiledL (runR V c t h0 prev).1.1 S1x1.size (by sl_kernel_rfl) y
theorem coverR7 (c : Dev nD) (t : Fin cfg0.N) (h0 : ¬t.val % 256 = 0) (prev) (y : S1x1.Idx) : ∃ pc ∈ (runR V c t h0 prev).1.2, y ∈ pc.1.set :=
  View.cover_of_tiledL (runR V c t h0 prev).1.2 S1x1.size (by sl_kernel_rfl) y

/-- What the first point leaves in the two accumulators: its pieces read back. -/
def outF (c : Dev nD) (t : Fin cfg0.N) (h0 : t.val % 256 = 0) : Vec F S1x1 .f32 × Vec F S1x1 .f32 :=
  (VO6.read (Elt F) (VO6.writes (Elt F) VO6.junk (runF V c t h0).1.1), VO7.read (Elt F) (VO7.writes (Elt F) VO7.junk (runF V c t h0).1.2))

/-- What a later point leaves in them, over `prev`. -/
def outR (c : Dev nD) (t : Fin cfg0.N) (h0 : ¬t.val % 256 = 0) (prev : Vec F S1x1 .f32 × Vec F S1x1 .f32) : Vec F S1x1 .f32 × Vec F S1x1 .f32 :=
  (VO6.read (Elt F) (VO6.writes (Elt F) VO6.junk (runR V c t h0 prev).1.1), VO7.read (Elt F) (VO7.writes (Elt F) VO7.junk (runR V c t h0 prev).1.2))

/-- THE ACCUMULATION: the accumulators after the body at position `n`. -/
def outsAt (c : Dev nD) : (n : ℕ) → n < cfg0.N → Vec F S1x1 .f32 × Vec F S1x1 .f32
  | 0, hn => outF V c ⟨0, hn⟩ (Nat.zero_mod _)
  | n + 1, hn =>
    if h0 : (n + 1) % 256 = 0 then outF V c ⟨n + 1, hn⟩ h0
    else outR V c ⟨n + 1, hn⟩ h0 (outsAt c n (Nat.lt_of_succ_lt hn))

theorem outsAt_first (c : Dev nD) (t : Fin cfg0.N) (h0 : t.val % 256 = 0) : outsAt V c t.val t.isLt = outF V c t h0 := by
  obtain ⟨n, hn⟩ := t
  cases n with
  | zero => exact rfl
  | succ n => exact (dif_pos h0).trans rfl

theorem outsAt_rest (c : Dev nD) (t : Fin cfg0.N) (h0 : ¬t.val % 256 = 0) :
    outsAt V c t.val t.isLt = outR V c t h0 (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t.val t.isLt).1
    | ⟨7, _⟩ => (outsAt V c t.val t.isLt).2
  Φ _ := Pipeline.ΦA spec0 c
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
    | ⟨6, _⟩ => fullShare
    | ⟨7, _⟩ => fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = (outsAt V c t.val t.isLt).1 := by dsimp only [dat]
theorem after7 (c : Dev nD) (t : Fin cfg0.N) : (dat V c).after 7 t = (outsAt V c t.val t.isLt).2 := by dsimp only [dat]

theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d
theorem before5 (c : Dev nD) (t : Fin cfg0.N) (d) : (dat V c).before 5 t d = iblk V c 5 t :=
  before5_of V (dat V c) (A_eq V c 5) (after5 V c) t d

/-- At a later point an accumulator's staging buffer holds what the body left at the point before: it is written
    back after the last point only. -/
theorem before6_rest (c : Dev nD) (t : Fin cfg0.N) (h0 : ¬t.val % 256 = 0) (d) :
    (dat V c).before 6 t d = (outsAt V c (t.val - 1) (Nat.lt_of_le_of_lt (Nat.sub_le _ _) t.isLt)).1 := by
  have hN : t.val < 256 := lt_of_lt_of_eq t.isLt (show cfg0.N = 256 from N_0)
  rw [Dat.before_out_kept _ 6 rfl t (by omega) (Bool.eq_false_iff.mpr fun h => by have := (flush0_6 _).mp h; dsimp only at this; omega)
    (fun _ => rfl) (fun _ _ => rfl)]
  dsimp only [dat]
theorem before7_rest (c : Dev nD) (t : Fin cfg0.N) (h0 : ¬t.val % 256 = 0) (d) :
    (dat V c).before 7 t d = (outsAt V c (t.val - 1) (Nat.lt_of_le_of_lt (Nat.sub_le _ _) t.isLt)).2 := by
  have hN : t.val < 256 := lt_of_lt_of_eq t.isLt (show cfg0.N = 256 from N_0)
  rw [Dat.before_out_kept _ 7 rfl t (by omega) (Bool.eq_false_iff.mpr fun h => by have := (flush0_7 _).mp h; dsimp only at this; omega)
    (fun _ => rfl) (fun _ _ => rfl)]
  dsimp only [dat]

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t))

set_option maxHeartbeats 1600000 in
/-- The body at any point: the inputs' memrefs hold their blocks; the first point runs the reset case, every other the
    accumulating case over what the point before left. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6, after7]
  have hN : t.val < 256 := lt_of_lt_of_eq t.isLt (show cfg0.N = 256 from N_0)
  by_cases h0 : t.val % 256 = 0
  · rw [outsAt_first V c t h0]
    unfold outF
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runF V c t h0).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; show _ = View.read (Elt F) VO6 (VO6.writes (Elt F) VO6.junk _); exact View.read_writes_of_cover _ _ _ _ _ (coverF6 V c t h0)
    · unfold owns; iexists _; isplitr
      swap; · iexact H7
      ipureintro; show _ = View.read (Elt F) VO7 (VO7.writes (Elt F) VO7.junk _); exact View.read_writes_of_cover _ _ _ _ _ (coverF7 V c t h0)
  · rw [outsAt_rest V c t h0]
    simp only [before6_rest V c t h0, before7_rest V c t h0]
    unfold outR
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runR V c t h0 _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; show _ = View.read (Elt F) VO6 (VO6.writes (Elt F) VO6.junk _); exact View.read_writes_of_cover _ _ _ _ _ (coverR6 V c t h0 _)
    · unfold owns; iexists _; isplitr
      swap; · iexact H7
      ipureintro; show _ = View.read (Elt F) VO7 (VO7.writes (Elt F) VO7.junk _); exact View.read_writes_of_cover _ _ _ _ _ (coverR7 V c t h0 _)

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Data

end
-- ==== Proof.KernelIdeal.Run.lean ====
/-
  The run of @main: four stretches of host operations (two row normalisations, the labels reshaped as a column and as a
  row), the kernel region, and the closing host operations (the two totals made scalars and combined). Between two
  items the core holds every unscoped buffer whole at a named valuation. At the region's entry the two normalised
  arrays are each split in two halves, one per window that reads them, and at its exit the halves are joined again;
  the region's two result arrays leave at what the write-back after the last point puts there.
-/
import proofs.«125551_j8486855377129_1_alg».proof.Proof.KernelIdeal.Data
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body Cert.KernelIdeal.Data
open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first array's row norms. -/
abbrev W1 : Dev nD → Valuation τ sig (Elt F) := fun c => StableHlo.after hostOps0 (W0 m ρ c)
/-- After the first array is normalised. -/
abbrev W2 : Dev nD → Valuation τ sig (Elt F) := fun c => StableHlo.after hostOps0_1 (W1 m ρ c)
/-- After the second array's row norms. -/
abbrev W3 : Dev nD → Valuation τ sig (Elt F) := fun c => StableHlo.after hostOps0_2 (W2 m ρ c)
/-- At the region's entry: the second array normalised, the labels reshaped. -/
abbrev W4 : Dev nD → Valuation τ sig (Elt F) := fun c => StableHlo.after hostOps0_3 (W3 m ρ c)
/-- The same read at the TensorCore's references. -/
abbrev V4 : (c : Dev nD) → (b : Ref sig .tc) → Buf (Elt F) ((c : Thread nD τ).loc b) := fun c b => W4 m ρ c b

/-- The two totals as the write-back after the last point leaves them. -/
abbrev outSum (c : Dev nD) := (dat (V4 m ρ) c).arrAt 6 cfg0.N
abbrev outCnt (c : Dev nD) := (dat (V4 m ρ) c).arrAt 7 cfg0.N

/-- At the region's exit: the two result arrays at the totals, every other buffer as entered. -/
def W5 (c : Dev nD) : Valuation τ sig (Elt F) :=
  Function.update (Function.update (W4 m ρ c) (Proc.devRef .tc main_v12_0) (outSum m ρ c)) (Proc.devRef .tc main_v12_1) (outCnt m ρ c)
abbrev V5 : (c : Dev nD) → (b : Ref sig .tc) → Buf (Elt F) ((c : Thread nD τ).loc b) := fun c b => W5 m ρ c b
/-- At the return. -/
abbrev W6 : Dev nD → Valuation τ sig (Elt F) := fun c => StableHlo.after hostOps1 (W5 m ρ c)

theorem W5_sum (c : Dev nD) : W5 m ρ c (Proc.devRef .tc main_v12_0) = outSum m ρ c := by
  unfold W5
  rw [Function.update_of_ne (by decide : (Proc.devRef .tc main_v12_0 : DevRef τ sig) ≠ Proc.devRef .tc main_v12_1), Function.update_self]
theorem W5_cnt (c : Dev nD) : W5 m ρ c (Proc.devRef .tc main_v12_1) = outCnt m ρ c := by
  unfold W5; rw [Function.update_self]
theorem W5_of_ne (c : Dev nD) (b : DevRef τ sig) (h0 : b ≠ Proc.devRef .tc main_v12_0) (h1 : b ≠ Proc.devRef .tc main_v12_1) :
    W5 m ρ c b = W4 m ρ c b := by
  unfold W5; rw [Function.update_of_ne h1, Function.update_of_ne h0]

/-! ## The windows' arrays and the buffers behind them -/

section Arrays

variable (V : (c : Dev nD) → (b : Ref sig .tc) → Buf (Elt F) ((c : Thread nD τ).loc b))

/-- Six distinct buffers stand behind the eight windows: windows 0 and 2 read one array, windows 1 and 3 another. -/
theorem arr_image : (Finset.univ.image (Pipeline.arrRef spec0) : Finset (Ref sig .tc))
    = {Pipeline.arrRef spec0 0, Pipeline.arrRef spec0 1, Pipeline.arrRef spec0 4, Pipeline.arrRef spec0 5, Pipeline.arrRef spec0 6, Pipeline.arrRef spec0 7} := by
  decide

theorem share0 (c : Dev nD) : (dat V c).share 0 = fullShare.left := rfl
theorem share1 (c : Dev nD) : (dat V c).share 1 = fullShare.left := rfl
theorem share2 (c : Dev nD) : (dat V c).share 2 = fullShare.right := rfl
theorem share3 (c : Dev nD) : (dat V c).share 3 = fullShare.right := rfl
theorem share4 (c : Dev nD) : (dat V c).share 4 = fullShare := rfl
theorem share5 (c : Dev nD) : (dat V c).share 5 = fullShare := rfl
theorem share6 (c : Dev nD) : (dat V c).share 6 = fullShare := rfl
theorem share7 (c : Dev nD) : (dat V c).share 7 = fullShare := rfl

/-- A buffer's points-to depends on the reference only. -/
theorem pts_congr (c : Dev nD) (V' : (b : Ref sig .tc) → Buf (Elt F) ((c : Thread nD τ).loc b)) (q : PosShare TreeShare)
    {r r' : Ref sig .tc} (h : r = r') :
    ((((c : Thread nD τ).loc r) ↦{q} V' r : sProp 𝕄)) = (((c : Thread nD τ).loc r') ↦{q} V' r') := by
  subst h; rfl

/-- The pipeline's arrays at contents read off a valuation `V'`, window by window. -/
theorem arrays_eq8 (c : Dev nD) (V' : (b : Ref sig .tc) → Buf (Elt F) ((c : Thread nD τ).loc b)) :
    ((dat V c).arrays (fun w => V' (Pipeline.arrRef spec0 w)) : sProp 𝕄) = iprop(
      (((c : Thread nD τ).loc (Pipeline.arrRef spec0 0)) ↦{fullShare.left} V' (Pipeline.arrRef spec0 0))
      ∗ (((c : Thread nD τ).loc (Pipeline.arrRef spec0 1)) ↦{fullShare.left} V' (Pipeline.arrRef spec0 1))
      ∗ (((c : Thread nD τ).loc (Pipeline.arrRef spec0 2)) ↦{fullShare.right} V' (Pipeline.arrRef spec0 2))
      ∗ (((c : Thread nD τ).loc (Pipeline.arrRef spec0 3)) ↦{fullShare.right} V' (Pipeline.arrRef spec0 3))
      ∗ (((c : Thread nD τ).loc (Pipeline.arrRef spec0 4)) ↦{fullShare} V' (Pipeline.arrRef spec0 4))
      ∗ (((c : Thread nD τ).loc (Pipeline.arrRef spec0 5)) ↦{fullShare} V' (Pipeline.arrRef spec0 5))
      ∗ (((c : Thread nD τ).loc (Pipeline.arrRef spec0 6)) ↦{fullShare} V' (Pipeline.arrRef spec0 6))
      ∗ (((c : Thread nD τ).loc (Pipeline.arrRef spec0 7)) ↦{fullShare} V' (Pipeline.arrRef spec0 7))) := by
  unfold Dat.arrays
  have hw : ∀ w : Fin cfg0.W, (((cfg0.win w).arr.view.loc (c : Thread nD τ) ↦[(cfg0.win w).arr.view.set]{(dat V c).share w} V' (Pipeline.arrRef spec0 w) : sProp 𝕄))
      = (((c : Thread nD τ).loc (Pipeline.arrRef spec0 w)) ↦{(dat V c).share w} V' (Pipeline.arrRef spec0 w)) := fun w => by
    rw [(arr_whole0 w).set_eq_univ]
  rw [bigSep_congr (fun w _ => hw w), bigSep_W0, share0, share1, share2, share3, share4, share5, share6, share7]

/-- The buffers behind the arrays, one by one. -/
theorem arrBufs_eq6 (c : Dev nD) (V' : (b : Ref sig .tc) → Buf (Elt F) ((c : Thread nD τ).loc b)) :
    (Pipeline.arrBufs (Ix := Unit) (Name := ℕ) (U := UR sig nD τ) (Lvl := ℕ) spec0 c V' : sProp 𝕄) = iprop(
      (((c : Thread nD τ).loc (Pipeline.arrRef spec0 0)) ↦{fullShare} V' (Pipeline.arrRef spec0 0))
      ∗ (((c : Thread nD τ).loc (Pipeline.arrRef spec0 1)) ↦{fullShare} V' (Pipeline.arrRef spec0 1))
      ∗ (((c : Thread nD τ).loc (Pipeline.arrRef spec0 4)) ↦{fullShare} V' (Pipeline.arrRef spec0 4))
      ∗ (((c : Thread nD τ).loc (Pipeline.arrRef spec0 5)) ↦{fullShare} V' (Pipeline.arrRef spec0 5))
      ∗ (((c : Thread nD τ).loc (Pipeline.arrRef spec0 6)) ↦{fullShare} V' (Pipeline.arrRef spec0 6))
      ∗ (((c : Thread nD τ).loc (Pipeline.arrRef spec0 7)) ↦{fullShare} V' (Pipeline.arrRef spec0 7))) := by
  unfold Pipeline.arrBufs
  rw [arr_image, bigSep_insert (by decide), bigSep_insert (by decide), bigSep_insert (by decide), bigSep_insert (by decide),
    bigSep_insert (by decide), bigSep_singleton]
  rfl

/-- ENTRY and EXIT, the arrays' part: the six buffers whole at `V'` are the pipeline's arrays at the contents `V'` gives
    each window's array — a buffer two windows read is held as its two halves. -/
theorem arrays_iff_bufs (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      ⊣⊢ (dat V c).arrays (fun w => V' (Pipeline.arrRef spec0 w)) := by
  rw [arrBufs_eq6, arrays_eq8,
    pts_congr c V' fullShare.right (by decide : Pipeline.arrRef spec0 2 = Pipeline.arrRef spec0 0),
    pts_congr c V' fullShare.right (by decide : Pipeline.arrRef spec0 3 = Pipeline.arrRef spec0 1)]
  constructor
  · iintro ⟨Ha, Hb, Hc, Hd, He, Hf⟩
    ihave Ha := (pointsTo_share (PosShare.mem_left_op_right fullShare)).1 $$ Ha
    icases Ha with ⟨Hal, Har⟩
    ihave Hb := (pointsTo_share (PosShare.mem_left_op_right fullShare)).1 $$ Hb
    icases Hb with ⟨Hbl, Hbr⟩
    isplitl [Hal]; · iexact Hal
    isplitl [Hbl]; · iexact Hbl
    isplitl [Har]; · iexact Har
    isplitl [Hbr]; · iexact Hbr
    isplitl [Hc]; · iexact Hc
    isplitl [Hd]; · iexact Hd
    isplitl [He]; · iexact He
    iexact Hf
  · iintro ⟨Hal, Hbl, Har, Hbr, Hc, Hd, He, Hf⟩
    isplitl [Hal Har]
    · iapply (pointsTo_share (PosShare.mem_left_op_right fullShare)).2
      isplitl [Hal]; · iexact Hal
      iexact Har
    isplitl [Hbl Hbr]
    · iapply (pointsTo_share (PosShare.mem_left_op_right fullShare)).2
      isplitl [Hbl]; · iexact Hbl
      iexact Hbr
    isplitl [Hc]; · iexact Hc
    isplitl [Hd]; · iexact Hd
    isplitl [He]; · iexact He
    iexact Hf

end Arrays

/-! ## The proof data family and the thread state -/

abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state: every unscoped buffer at the last valuation, the generator register at some state. -/
abbrev Tₙ (c : Dev nD) : sProp 𝕄 := iprop(StableHlo.held (c : Thread nD τ) (Pipeline.ucRefs τ sig) (W6 m ρ c) ∗ ∃ r, prngReg c r)

/-- The arrays' contents at the region's exit are the exit valuation's: an input as entered, the two results at the totals. -/
theorem exit_arrays (c : Dev nD) :
    (fun w => (dat (V4 m ρ) c).arrAt w cfg0.N) = fun w => V5 m ρ c (Pipeline.arrRef spec0 w) := by
  funext w
  match w with
  | ⟨0, _⟩ => exact ((dat (V4 m ρ) c).arrAt_in 0 rfl _).trans (W5_of_ne m ρ c (Proc.devRef .tc (Pipeline.arrRef spec0 0)) (by decide) (by decide)).symm
  | ⟨1, _⟩ => exact ((dat (V4 m ρ) c).arrAt_in 1 rfl _).trans (W5_of_ne m ρ c (Proc.devRef .tc (Pipeline.arrRef spec0 1)) (by decide) (by decide)).symm
  | ⟨2, _⟩ => exact ((dat (V4 m ρ) c).arrAt_in 2 rfl _).trans (W5_of_ne m ρ c (Proc.devRef .tc (Pipeline.arrRef spec0 2)) (by decide) (by decide)).symm
  | ⟨3, _⟩ => exact ((dat (V4 m ρ) c).arrAt_in 3 rfl _).trans (W5_of_ne m ρ c (Proc.devRef .tc (Pipeline.arrRef spec0 3)) (by decide) (by decide)).symm
  | ⟨4, _⟩ => exact ((dat (V4 m ρ) c).arrAt_in 4 rfl _).trans (W5_of_ne m ρ c (Proc.devRef .tc (Pipeline.arrRef spec0 4)) (by decide) (by decide)).symm
  | ⟨5, _⟩ => exact ((dat (V4 m ρ) c).arrAt_in 5 rfl _).trans (W5_of_ne m ρ c (Proc.devRef .tc (Pipeline.arrRef spec0 5)) (by decide) (by decide)).symm
  | ⟨6, _⟩ => exact (W5_sum m ρ c).symm
  | ⟨7, _⟩ => exact (W5_cnt m ρ c).symm

/-- Off the windows' arrays the exit valuation is the entry one. -/
theorem exit_rest (c : Dev nD) : ∀ b, b ∉ Finset.univ.image (Pipeline.arrRef spec0) → V5 m ρ c b = V4 m ρ c b := fun b hb =>
  W5_of_ne m ρ c _
    (fun e => hb (Finset.mem_image.mpr ⟨6, Finset.mem_univ _, (Proc.devRef_injective _ e).symm⟩))
    (fun e => hb (Finset.mem_image.mpr ⟨7, Finset.mem_univ _, (Proc.devRef_injective _ e).symm⟩))

/-! ## The region as a segment -/

set_option backward.isDefEq.respectTransparency.types false in
/-- The kernel region over the thread state: entered from every unscoped buffer at `W4`, left at `W5`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit : (unscopedBufs (Ix := Unit) (Name := ℕ) (U := UR sig nD τ) (Lvl := ℕ) c (V4 m ρ c) : sProp 𝕄)
        ⊢ iprop((pdats m ρ 0 c).arrays ((pdats m ρ 0 c).arrAt · 0) ∗ Pipeline.unscopedRest spec0 c (V4 m ρ c)) := by
      rw [Pipeline.unscopedBufs_split₀ cfgs (0 : Fin 1) winFacts₀0.arr_unscoped c (V4 m ρ c)]
      exact sep_mono (arrays_iff_bufs (V4 m ρ) c (V4 m ρ c)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V4 m ρ c))
        ⊢ (unscopedBufs (Ix := Unit) (Name := ℕ) (U := UR sig nD τ) (Lvl := ℕ) c (V5 m ρ c) : sProp 𝕄) := by
      rw [Pipeline.unscopedBufs_split₀ cfgs (0 : Fin 1) winFacts₀0.arr_unscoped c (V5 m ρ c)]
      refine sep_mono ?_ (Entails.of_eq ?_)
      · rw [show (fun w => (pdats m ρ 0 c).arrAt w cfg0.N) = fun w => V5 m ρ c (Pipeline.arrRef spec0 w) from exit_arrays m ρ c]
        exact (arrays_iff_bufs (V4 m ρ) c (V5 m ρ c)).2
      · unfold Pipeline.unscopedRest
        exact bigSep_congr fun b hb => by rw [exit_rest m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's six segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final memory holds every unscoped buffer at the last valuation `W6`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-! ## No item writes an argument -/

abbrev hostOps0_W : List (Ref sig .tc) := [main_call0_v0, main_call0_cst, main_call0_v1, main_call0_v2, main_v0]
abbrev hostOps0_1_W : List (Ref sig .tc) := [main_cst, main_v1, main_v2, main_v3, main_v4]
abbrev hostOps0_2_W : List (Ref sig .tc) := [main_call1_v0, main_call1_cst, main_call1_v1, main_call1_v2, main_v5]
abbrev hostOps0_3_W : List (Ref sig .tc) := [main_cst_0, main_v6, main_v7, main_v8, main_v9, main_v10, main_v11]
abbrev hostOps1_W : List (Ref sig .tc) := [main_v13, main_v14, main_cst_1, main_v15, main_cst_2, main_v16, main_v17]

theorem hostOps0_writes : (hostOps0 : List (HloOp τ sig (Elt F))).Forall fun op => op.writes ⊆ (hostOps0_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.reshape_writes, Finset.singleton_subset_iff, List.mem_toFinset]
  refine ⟨?_, ?_, ?_, ?_, ?_⟩ <;> exact List.mem_map_of_mem (by decide)
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.reshape_writes, Finset.singleton_subset_iff, List.mem_toFinset]
  refine ⟨?_, ?_, ?_, ?_, ?_⟩ <;> exact List.mem_map_of_mem (by decide)
theorem hostOps0_2_writes : (hostOps0_2 : List (HloOp τ sig (Elt F))).Forall fun op => op.writes ⊆ (hostOps0_2_W.map (Proc.devRef (τ := τ) .tc)).toFinset := by
  simp only [List.Forall, StableHlo.TRef.nullary, StableHlo.TRef.unary, StableHlo.TRef.binary, StableHlo.nullary_writes, StableHlo.unary_writes, StableHlo.binary_writes, StableHlo.reshape_writes, Finset.singleton_subset_iff, List.mem_toFinset]
  refine ⟨?_, ?_, ?_, ?_, ?_⟩ <;> exact List.mem_map_of_mem (by decide)
theorem hostOps0_3_writes : (hostOps0_3 : List (HloOp τ sig (Elt F))).Forall fun op => op.writes ⊆ (hostOps0_3_W.map (Proc.devRef (τ := τ) .tc)).toFinset := by
  simp only [List.Forall, StableHlo.nullary_writes, StableHlo.unary_writes, StableHlo.binary_writes, StableHlo.reshape_writes, Finset.singleton_subset_iff, List.mem_toFinset]
  refine ⟨?_, ?_, ?_, ?_, ?_, ?_, ?_⟩ <;> exact List.mem_map_of_mem (by decide)
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.reshape_writes, Finset.singleton_subset_iff, List.mem_toFinset]
  refine ⟨?_, ?_, ?_, ?_, ?_, ?_, ?_⟩ <;> exact List.mem_map_of_mem (by decide)

/-- A buffer no host line writes and that is neither result array ends as launched. -/
theorem W6_kept (c : Dev nD) (r : Ref sig .tc) (h0 : r ∉ hostOps0_W) (h1 : r ∉ hostOps0_1_W) (h2 : r ∉ hostOps0_2_W) (h3 : r ∉ hostOps0_3_W)
    (h5 : r ∉ hostOps1_W) (ha : (Proc.devRef .tc r : DevRef τ sig) ≠ Proc.devRef .tc main_v12_0) (hb : (Proc.devRef .tc r : DevRef τ sig) ≠ Proc.devRef .tc main_v12_1) :
    W6 m ρ c (Proc.devRef .tc r) = W0 m ρ c (Proc.devRef .tc r) :=
  (StableHlo.after_of_writes_sub hostOps1 _ hostOps1_writes h5).trans <| (W5_of_ne m ρ c _ ha hb).trans <|
    (StableHlo.after_of_writes_sub hostOps0_3 _ hostOps0_3_writes h3).trans <| (StableHlo.after_of_writes_sub hostOps0_2 _ hostOps0_2_writes h2).trans <|
    (StableHlo.after_of_writes_sub hostOps0_1 _ hostOps0_1_writes h1).trans <| StableHlo.after_of_writes_sub hostOps0 _ hostOps0_writes h0

theorem W6_main_arg0 (c : Dev nD) : W6 m ρ c (Proc.devRef .tc main_arg0) = m ((c : Thread nD τ).loc main_arg0) :=
  (W6_kept m ρ c main_arg0 (by decide) (by decide) (by decide) (by decide) (by decide) (by decide) (by decide)).trans rfl
theorem W6_main_arg1 (c : Dev nD) : W6 m ρ c (Proc.devRef .tc main_arg1) = m ((c : Thread nD τ).loc main_arg1) :=
  (W6_kept m ρ c main_arg1 (by decide) (by decide) (by decide) (by decide) (by decide) (by decide) (by decide)).trans rfl
theorem W6_main_arg2 (c : Dev nD) : W6 m ρ c (Proc.devRef .tc main_arg2) = m ((c : Thread nD τ).loc main_arg2) :=
  (W6_kept m ρ c main_arg2 (by decide) (by decide) (by decide) (by decide) (by decide) (by decide) (by decide)).trans rfl

/-- THE FRAME: every weakly fair execution of @main terminates, nothing faulting, and the three argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_main m ρ)

/-- The run with the result named: the result buffer ends at the last valuation's, the arguments as launched. -/
theorem run_result : θ_run defs (onTc (τ := τ) (main (F := F))) ⟨m, fun _ => 0, ρ⟩ (fun r => ∀ c : Dev nD,
      r.2.mem ((c.tc : Thread nD τ).loc main_v17) = W6 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v17 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c)⟩) (run_main m ρ)

end Cert.KernelIdeal.Run

end
-- ==== Proof.Spec.lean ====
/-
  The quantity both programs compute, written once over index functions.

  Rows `pn`, `zn` (8192 vectors of 128 coordinates, already normalised) and labels `tg`. A pair `(i, j)` counts
  when `i < j` and the labels agree; its weight is `1` (else `0`). The loss is
  `-1/2 · (Σ_{pairs} (⟨pn i, zn j⟩ + ⟨zn i, pn j⟩)) / max (#pairs) 1`.
  The sums are taken tile by tile: the 8192 × 8192 pair table is cut into 16 × 16 tiles of 512 × 512, tile `(p, q)`
  holding rows `512 p + a` against rows `512 q + b`, and the tiles are added one after the other in row-major order of
  `(p, q)` onto a zero start — the order is immaterial on the extended reals (addition is commutative and associative
  there), but this is the form the accumulation takes.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.PairLoss

/-- 8192 rows of 128 extended reals. -/
abbrev Rows := (⟨2, ![8192, 128]⟩ : Shape).Idx → EReal
/-- 8192 labels. -/
abbrev Labels := (⟨1, ![8192]⟩ : Shape).Idx → BitVec 32

/-- Row `a` of tile band `p`: the global row `512 p + a`. -/
def row (p : Fin 16) (a : Fin 512) : Fin 8192 := ⟨p.val * 512 + a.val, by omega⟩

/-- The inner product of row `i` of `x` with row `j` of `y`. -/
def dot (x y : Rows) (i j : Fin 8192) : EReal := ∑ d : Fin 128, x (ix2 i d) * y (ix2 j d)

/-- The weight of the pair `(i, j)`: `1` when the labels agree and `i < j`, else `0`. -/
def ind (tg : Labels) (i j : Fin 8192) : EReal := if tg (ix1 i) = tg (ix1 j) ∧ i.val < j.val then 1 else 0

/-- Tile `(p, q)`'s weighted sum of `⟨pn i, zn j⟩ + ⟨zn i, pn j⟩`. -/
def tileSum (pn zn : Rows) (tg : Labels) (p q : Fin 16) : EReal :=
  ∑ a : Fin 512, ∑ b : Fin 512, ind tg (row p a) (row q b) * (dot pn zn (row p a) (row q b) + dot zn pn (row p a) (row q b))

/-- Tile `(p, q)`'s number of pairs. -/
def tileCnt (tg : Labels) (p q : Fin 16) : EReal :=
  ∑ a : Fin 512, ∑ b : Fin 512, ind tg (row p a) (row q b)

/-- The tile band of the rows at grid position `n` (row-major over 16 × 16). -/
def bandP (n : ℕ) : Fin 16 := ⟨n / 16 % 16, Nat.mod_lt _ (by decide)⟩
/-- The tile band of the columns at grid position `n`. -/
def bandQ (n : ℕ) : Fin 16 := ⟨n % 16, Nat.mod_lt _ (by decide)⟩

/-- The running weighted sum after positions `0 … n`: a zero start, then one tile after the other. -/
def accSum (pn zn : Rows) (tg : Labels) : ℕ → EReal
  | 0 => 0 + tileSum pn zn tg (bandP 0) (bandQ 0)
  | n + 1 => accSum pn zn tg n + tileSum pn zn tg (bandP (n + 1)) (bandQ (n + 1))

/-- The running pair count after positions `0 … n`. -/
def accCnt (tg : Labels) : ℕ → EReal
  | 0 => 0 + tileCnt tg (bandP 0) (bandQ 0)
  | n + 1 => accCnt tg n + tileCnt tg (bandP (n + 1)) (bandQ (n + 1))

/-- The loss from the two totals: `(-1/2 · S) / max c 1`, the constants as their f32 words. -/
def lossOf (S c : EReal) : EReal :=
  Ideal.div (Ideal.ofBits .f32 0xBF000000#32 * S) (max c (Ideal.ofBits .f32 0x3F800000#32))

/-- The loss of normalised rows `pn`, `zn` with labels `tg`, accumulated over the 256 tiles. -/
def loss (pn zn : Rows) (tg : Labels) : EReal := lossOf (accSum pn zn tg 255) (accCnt tg 255)

/-! ## The same quantity summed over the whole pair table at once -/

/-- The number of pairs, at least one: `max (Σ_i Σ_j weight) 1`. -/
def refPairs (tg : Labels) : EReal :=
  max (∑ i : Fin 8192, ∑ j : Fin 8192, ind tg i j) (Ideal.ofBits .f32 0x3F800000#32)

/-- `1/2 · ( (-(Σ ⟨pn i, zn j⟩ · weight)) / pairs + (-(Σ ⟨pn j, zn i⟩ · weight)) / pairs )`: the two directed losses averaged. -/
def refLoss (pn zn : Rows) (tg : Labels) : EReal :=
  Ideal.ofBits .f32 0x3F000000#32
    * (Ideal.div (-(∑ i : Fin 8192, ∑ j : Fin 8192, dot pn zn i j * ind tg i j)) (refPairs tg)
      + Ideal.div (-(∑ i : Fin 8192, ∑ j : Fin 8192, dot pn zn j i * ind tg i j)) (refPairs tg))

/-! ## Normalising the rows -/

/-- Row `i`'s Euclidean norm, clamped below by the small positive constant `0x322BCC77` (about `1e-8`). -/
def nrmDen (x : Rows) (i : Fin 8192) : EReal :=
  max (Ideal.sqrt (Ideal.ofBits .f32 0x00000000#32 + ∑ d : Fin 128, x (ix2 i d) * x (ix2 i d))) (Ideal.ofBits .f32 0x322BCC77#32)

/-- Each row divided by its clamped norm. -/
def nrm (x : Rows) : Rows := fun j => Ideal.div (x j) (nrmDen x (j 0))

end Cert.PairLoss

end
-- ==== Proof.KernelIdeal.HostValue.lean ====
/-
  The host lines around the kernel region, read back at the extended reals: before the region the two inputs are
  normalised row by row and the labels laid out as a column and as a row; after it the two accumulated totals are
  turned into the loss `(-1/2 · S) / max c 1`.
-/
import proofs.«125551_j8486855377129_1_alg».proof.Proof.Gen.KernelIdeal.Launch
import proofs.«125551_j8486855377129_1_alg».proof.Proof.Spec
import Idealize.ShloMosaic.Lib.StableHlo.Run
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.HostValue

open Cert.KernelIdeal Cert.KernelIdeal.Gen
open Idealize.SL.Sem Idealize.ShloMosaic.TcCoe Idealize.ShloMosaic.StableHlo

/-! ## After the region: the loss from the two totals -/

/-- The one index of a `1 × 1` array. -/
theorem idx11 (k : S1x1.Idx) : k = ix2 0 0 := by
  funext a
  match a with
  | ⟨0, h⟩ => exact Fin.ext (by have h1 : (k ⟨0, h⟩).val < 1 := (k ⟨0, h⟩).isLt; show (k ⟨0, h⟩).val = 0; omega)
  | ⟨1, h⟩ => exact Fin.ext (by have h1 : (k ⟨1, h⟩).val < 1 := (k ⟨1, h⟩).isLt; show (k ⟨1, h⟩).val = 0; omega)

/-- A `1 × 1` array recast as a scalar holds its one entry. -/
theorem cast11 {α : Type} (x : S1x1.Idx → α) (h : S1x1.ShapeCasts S_) (i : S_.Idx) : shapeCast S_ x h i = x (ix2 0 0) := by
  unfold shapeCast
  exact congrArg x (idx11 _)

/-- The result after the closing host lines: the loss of the two `1 × 1` totals the region leaves. -/
theorem tail_v17 (W5 : Valuation τ sig (Elt Ideal)) :
    (StableHlo.after (hostOps1 (F := Ideal)) W5 (Proc.devRef .tc main_v17) : S_.Idx → EReal)
      = fun _ => Cert.PairLoss.lossOf ((W5 (Proc.devRef .tc main_v12_0) : S1x1.Idx → EReal) (ix2 0 0))
          ((W5 (Proc.devRef .tc main_v12_1) : S1x1.Idx → EReal) (ix2 0 0)) := by
  after_results
  funext i
  refine Eq.trans ?_ (congrArg₂ (fun a b => Cert.PairLoss.lossOf a b) (cast11 _ shapeCasts_S1x1_S_ i) (cast11 _ shapeCasts_S1x1_S_ i))
  rfl

/-! ## Before the region: the normalised rows -/

/-- A column broadcast along the rows, read at an index: the column's entry of that row. -/
theorem bcast_col {α : Type} (y : S8192x1.Idx → α) (hb : S8192x1.BroadcastsInDim S8192x128 ![0, 1]) (a : Fin 8192) (d : Fin 128) :
    broadcastInDim S8192x128 ![0, 1] hb y (ix2 a d) = y (ix2 a 0) :=
  broadcastInDim_apply _ hb y (ix2 a d) (ix2 a 0) (fun c => match c with
    | ⟨0, _⟩ => by show a.val = if (8192 : Nat) = 1 then 0 else a.val; rw [if_neg (by decide)]
    | ⟨1, _⟩ => by show 0 = if (1 : Nat) = 1 then 0 else d.val; rw [if_pos rfl])

/-- A vector laid out as a column, read at an index: the vector's entry of that row. -/
theorem bcast_vec {α : Type} (y : S8192.Idx → α) (hb : S8192.BroadcastsInDim S8192x1 ![0]) (i : Fin 8192) (c : Fin 1) :
    broadcastInDim S8192x1 ![0] hb y (ix2 i c) = y (ix1 i) :=
  broadcastInDim_apply _ hb y (ix2 i c) (ix1 i) (fun a => match a with
    | ⟨0, _⟩ => by show i.val = if (8192 : Nat) = 1 then 0 else i.val; rw [if_neg (by decide)])

/-- The sum of squares of row `i`, onto a zero start. -/
theorem sumsq_apply (x : FVec Ideal S8192x128 .f32) (hr : S8192x128.ReducesTo [1] S8192) (hS : 0 < S_.numel) (i : Fin 8192) :
    Host.reduceAdd (mulf x x) (constant (F := Ideal) S_ .f32 0x00000000#32) hr hS (ix1 i)
      = Ideal.ofBits .f32 0x00000000#32 + ∑ d : Fin 128, x (ix2 i d) * x (ix2 i d) := by
  simp only [Host.reduceAdd, Ideal.hostReduceAdd_def]
  rw [Ideal.hostReduceAdd_single hr (by decide)]
  refine congrArg (_ + ·) (Finset.sum_congr rfl fun k _ => ?_)
  exact congrArg (mulf x x) (funext fun a => Fin.ext (by match a with | ⟨0, _⟩ => rfl | ⟨1, _⟩ => rfl))

/-- One row normalisation as the host lines write it — square, sum along the row, square root, clamp below by the
    small constant, divide — is `Cert.PairLoss.nrm`. -/
theorem norm_eq (x : FVec Ideal S8192x128 .f32)
    (hr : S8192x128.ReducesTo [1] S8192) (hS : 0 < S_.numel)
    (hb1 : S8192.BroadcastsInDim S8192x1 ![0]) (hb2 : S_.BroadcastsInDim S8192x1 ![])
    (hb3 : S8192x1.BroadcastsInDim S8192x128 ![0, 1]) :
    Host.divf x (broadcastInDim S8192x128 ![0, 1] hb3
        (maximumf (Host.sqrt (broadcastInDim S8192x1 ![0] hb1 (Host.reduceAdd (mulf x x) (constant S_ .f32 0x00000000#32) hr hS)))
          (broadcastInDim S8192x1 ![] hb2 (constant S_ .f32 0x322BCC77#32))))
      = Cert.PairLoss.nrm x := by
  funext j
  obtain ⟨a, d, rfl⟩ : ∃ a d, j = ix2 a d := ⟨j 0, j 1, eq_ix2 j⟩
  show Ideal.div (x (ix2 a d)) (broadcastInDim (s := S8192x1) S8192x128 ![0, 1] hb3 _ (ix2 a d)) = _
  rw [bcast_col]
  show Ideal.div (x (ix2 a d)) (max (Ideal.sqrt (broadcastInDim (s := S8192) S8192x1 ![0] hb1 _ (ix2 a 0))) (Ideal.ofBits .f32 0x322BCC77#32)) = _
  rw [bcast_vec, sumsq_apply]
  rfl

/-! ## Before the region: the labels as a column and as a row -/

/-- The labels recast as a column hold label `a` at row `a`. -/
theorem cast_col {α : Type} (x : S8192.Idx → α) (h : S8192.ShapeCasts S8192x1) (a : Fin 8192) :
    shapeCast S8192x1 x h (ix2 a 0) = x (ix1 a) :=
  shapeCast_apply x h (ix2 a 0) (ix1 a) (by
    rw [Shape.rowMajor_val_one, Shape.rowMajor_val_two]; show a.val = a.val * 1 + 0; omega)

/-- The labels recast as a row hold label `b` at column `b`. -/
theorem cast_row {α : Type} (x : S8192.Idx → α) (h : S8192.ShapeCasts S1x8192) (b : Fin 8192) :
    shapeCast S1x8192 x h (ix2 0 b) = x (ix1 b) :=
  shapeCast_apply x h (ix2 0 b) (ix1 b) (by
    rw [Shape.rowMajor_val_one, Shape.rowMajor_val_two]; show b.val = 0 * 8192 + b.val; omega)

/-! ## The buffers the region starts from -/

/-- The buffers after the four stretches of host lines that precede the region. -/
abbrev W4 (W0 : Valuation τ sig (Elt Ideal)) : Valuation τ sig (Elt Ideal) :=
  StableHlo.after (hostOps0_3 (F := Ideal)) (StableHlo.after (hostOps0_2 (F := Ideal))
    (StableHlo.after (hostOps0_1 (F := Ideal)) (StableHlo.after (hostOps0 (F := Ideal)) W0)))

/-- The first normalised input. -/
theorem W4_v4 (W0 : Valuation τ sig (Elt Ideal)) :
    (W4 W0 (Proc.devRef .tc main_v4) : S8192x128.Idx → EReal)
      = Cert.PairLoss.nrm (W0 (Proc.devRef .tc main_arg0) : S8192x128.Idx → EReal) := by
  dsimp only [W4]
  after_results
  exact norm_eq (W0 (Proc.devRef .tc main_arg0)) Gen.reducesTo_S8192x128_S8192_d1 Gen.h_S_ Gen.bcast_S8192_S8192x1_0
    Gen.bcast_S_S8192x1 Gen.bcast_S8192x1_S8192x128_0_1

/-- The second normalised input. -/
theorem W4_v9 (W0 : Valuation τ sig (Elt Ideal)) :
    (W4 W0 (Proc.devRef .tc main_v9) : S8192x128.Idx → EReal)
      = Cert.PairLoss.nrm (W0 (Proc.devRef .tc main_arg1) : S8192x128.Idx → EReal) := by
  dsimp only [W4]
  after_results
  exact norm_eq (W0 (Proc.devRef .tc main_arg1)) Gen.reducesTo_S8192x128_S8192_d1 Gen.h_S_ Gen.bcast_S8192_S8192x1_0
    Gen.bcast_S_S8192x1 Gen.bcast_S8192x1_S8192x128_0_1

/-- The labels as a column. -/
theorem W4_v10 (W0 : Valuation τ sig (Elt Ideal)) (a : Fin 8192) :
    (W4 W0 (Proc.devRef .tc main_v10) : S8192x1.Idx → BitVec 32) (ix2 a 0)
      = (W0 (Proc.devRef .tc main_arg2) : S8192.Idx → BitVec 32) (ix1 a) := by
  dsimp only [W4]
  after_results
  exact cast_col _ Gen.shapeCasts_S8192_S8192x1 a

/-- The labels as a row. -/
theorem W4_v11 (W0 : Valuation τ sig (Elt Ideal)) (b : Fin 8192) :
    (W4 W0 (Proc.devRef .tc main_v11) : S1x8192.Idx → BitVec 32) (ix2 0 b)
      = (W0 (Proc.devRef .tc main_arg2) : S8192.Idx → BitVec 32) (ix1 b) := by
  dsimp only [W4]
  after_results
  exact cast_row _ Gen.shapeCasts_S8192_S1x8192 b

/-- No host line before the region writes an argument. -/
theorem W4_arg0 (W0 : Valuation τ sig (Elt Ideal)) :
    W4 W0 (Proc.devRef .tc main_arg0) = W0 (Proc.devRef .tc main_arg0) := by
  dsimp only [W4]
  after_results

theorem W4_arg1 (W0 : Valuation τ sig (Elt Ideal)) :
    W4 W0 (Proc.devRef .tc main_arg1) = W0 (Proc.devRef .tc main_arg1) := by
  dsimp only [W4]
  after_results

theorem W4_arg2 (W0 : Valuation τ sig (Elt Ideal)) :
    W4 W0 (Proc.devRef .tc main_arg2) = W0 (Proc.devRef .tc main_arg2) := by
  dsimp only [W4]
  after_results

/-- No host line after the region writes an argument. -/
theorem tail_arg0 (W5 : Valuation τ sig (Elt Ideal)) :
    StableHlo.after (hostOps1 (F := Ideal)) W5 (Proc.devRef .tc main_arg0) = W5 (Proc.devRef .tc main_arg0) := by
  after_results

theorem tail_arg1 (W5 : Valuation τ sig (Elt Ideal)) :
    StableHlo.after (hostOps1 (F := Ideal)) W5 (Proc.devRef .tc main_arg1) = W5 (Proc.devRef .tc main_arg1) := by
  after_results

theorem tail_arg2 (W5 : Valuation τ sig (Elt Ideal)) :
    StableHlo.after (hostOps1 (F := Ideal)) W5 (Proc.devRef .tc main_arg2) = W5 (Proc.devRef .tc main_arg2) := by
  after_results

end Cert.KernelIdeal.HostValue

end
-- ==== Proof.KernelIdeal.Pieces.lean ====
/-
  What the kernel body leaves in its two one-element accumulators at a grid point, named: the running total and the
  running count each become their value before the point (zero at the first point) plus the tile's contribution, as
  the body's own arithmetic of the point's six input blocks.
-/
import proofs.«125551_j8486855377129_1_alg».proof.Proof.KernelIdeal.Data
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body Cert.KernelIdeal.Data
variable {F : FTy → Type} [FloatOps F]

variable (V : (c : Dev nD) → (b : Ref sig .tc) → Buf (Elt F) ((c : Thread nD τ).loc b))

/-- The zero offsets of a load or store of a whole buffer. -/
theorem hz : (![0, 0] : Fin 2 → Nat) = fun _ => 0 := funext fun a => by fin_cases a <;> rfl

/-- At the first point the body zeroes the two accumulators, reads the zeros back and adds the tile's totals. -/
theorem outF_eq (c : Dev nD) (t : Fin cfg0.N) (h0 : t.val % 256 = 0) :
    outF V c t h0 = (k0_pay2 (k0_pay6 (iblk V c 0 t) (iblk V c 3 t)) (k0_pay7 (iblk V c 1 t) (iblk V c 2 t))
        (k0_pay8 (F := F) (grid0.coords t) (iblk V c 4 t) (iblk V c 5 t)) (k0_pay4 (F := F)),
      k0_pay3 (k0_pay8 (F := F) (grid0.coords t) (iblk V c 4 t) (iblk V c 5 t)) (k0_pay5 (F := F))) := by
  unfold outF
  refine Prod.ext ?_ ?_
  · dsimp only
    rw [View.read_writes_junk_eq_canon]
    unfold runF runFirst
    dsimp only
    sl_unfold_words
    rw [View.canon_cons_unit_zero (S := S1x1) hz, View.readCov_unit_zero (S := S1x1) _ hz]
    simp only [View.readAt_eq_ld, (hs0 t).read_unread, (hs1 t).read_unread, (hs2 t).read_unread, (hs3 t).read_unread,
      (hs4 t).read_unread, (hs5 t).read_unread, View.ld_unit_zero (S := S512x128) hz,
      View.ld_unit_zero (S := S512x1) hz, View.ld_unit_zero (S := S1x512) hz]
  · dsimp only
    rw [View.read_writes_junk_eq_canon]
    unfold runF runFirst
    dsimp only
    sl_unfold_words
    rw [View.canon_cons_unit_zero (S := S1x1) hz, View.readCov_unit_zero (S := S1x1) _ hz]
    simp only [View.readAt_eq_ld, (hs4 t).read_unread, (hs5 t).read_unread,
      View.ld_unit_zero (S := S512x1) hz, View.ld_unit_zero (S := S1x512) hz]

/-- At every later point the body adds the tile's totals to what the accumulators held. -/
theorem outR_eq (c : Dev nD) (t : Fin cfg0.N) (h0 : ¬t.val % 256 = 0) (prev : Vec F S1x1 .f32 × Vec F S1x1 .f32) :
    outR V c t h0 prev = (k0_pay2 (k0_pay6 (iblk V c 0 t) (iblk V c 3 t)) (k0_pay7 (iblk V c 1 t) (iblk V c 2 t))
        (k0_pay8 (F := F) (grid0.coords t) (iblk V c 4 t) (iblk V c 5 t)) prev.1,
      k0_pay3 (k0_pay8 (F := F) (grid0.coords t) (iblk V c 4 t) (iblk V c 5 t)) prev.2) := by
  unfold outR
  refine Prod.ext ?_ ?_
  · dsimp only
    rw [View.read_writes_junk_eq_canon]
    unfold runR runRest
    dsimp only
    sl_unfold_words
    rw [View.canon_unit_zero (S := S1x1) hz]
    simp only [View.readAt_eq_ld, (hs0 t).read_unread, (hs1 t).read_unread, (hs2 t).read_unread, (hs3 t).read_unread,
      (hs4 t).read_unread, (hs5 t).read_unread, (hs6 t).read_unread, View.ld_unit_zero (S := S512x128) hz,
      View.ld_unit_zero (S := S512x1) hz, View.ld_unit_zero (S := S1x512) hz, View.ld_unit_zero (S := S1x1) hz]
  · dsimp only
    rw [View.read_writes_junk_eq_canon]
    unfold runR runRest
    dsimp only
    sl_unfold_words
    rw [View.canon_unit_zero (S := S1x1) hz]
    simp only [View.readAt_eq_ld, (hs4 t).read_unread, (hs5 t).read_unread, (hs7 t).read_unread,
      View.ld_unit_zero (S := S512x1) hz, View.ld_unit_zero (S := S1x512) hz, View.ld_unit_zero (S := S1x1) hz]

end Cert.KernelIdeal.Pieces

end
-- ==== Proof.KernelIdeal.Tile.lean ====
/-
  One grid point of the kernel, read at the extended reals: from its two blocks of rows of each normalised array and its
  two blocks of labels, the point adds to its running total the weighted sum, over the 512 × 512 pairs of the tile, of
  the two inner products of the pair, and to its running count the number of pairs of the tile.
-/
import proofs.«125551_j8486855377129_1_alg».proof.Proof.Gen.KernelIdeal.Skeleton
import proofs.«125551_j8486855377129_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost
import Idealize.ShloMosaic.Lib.Affine

noncomputable section

open scoped BigOperators
open Idealize.ShloMosaic Idealize.ShloMosaic.ValueIdx

namespace Cert.KernelIdeal.Tile

open Cert.KernelIdeal Cert.KernelIdeal.Gen

/-! ## The start of the two accumulators -/

/-- The running total starts at zero. -/
theorem pay4_apply : k0_pay4 (F := Ideal) (ix2 0 0) = 0 := by
  show Ideal.ofBits .f32 0x00000000#32 = 0
  exact Ideal.ofBits_zero_f32

/-- The running count starts at zero. -/
theorem pay5_apply : k0_pay5 (F := Ideal) (ix2 0 0) = 0 := by
  show Ideal.ofBits .f32 0x00000000#32 = 0
  exact Ideal.ofBits_zero_f32

/-! ## Sums over the lanes -/

/-- A sum along the rows of a 512 × 512 table: entry `a` is the sum of row `a`. -/
theorem rowSum_apply (src : FVec Ideal S512x512 .f32) (h : S512x512.Reduces [1] S512) (hφ : FKind.Formats .f32)
    (hacc : (0x00000000#32 : BitVec 32) = FKind.add.neutral .f32 hφ) (a : Fin 512) :
    multiReduction (F := Ideal) .add [1] S512 src 0x00000000#32 h hφ hacc (ix1 a) = ∑ b : Fin 512, src (ix2 a b) := by
  refine (Ideal.multiReduction_add_single src 0x00000000#32 h hφ hacc (ix1 a)).trans ?_
  refine Finset.sum_congr rfl fun k _ => congrArg src ?_
  funext c
  match c with
  | ⟨0, _⟩ => rfl
  | ⟨1, _⟩ => rfl

/-- A sum down a column of 512 entries. -/
theorem colSum_apply (w : FVec Ideal S512x1 .f32) (h : S512x1.Reduces [0] S1) (hφ : FKind.Formats .f32)
    (hacc : (0x00000000#32 : BitVec 32) = FKind.add.neutral .f32 hφ) :
    multiReduction (F := Ideal) .add [0] S1 w 0x00000000#32 h hφ hacc (ix1 0) = ∑ a : Fin 512, w (ix2 a 0) := by
  refine (Ideal.multiReduction_add_single w 0x00000000#32 h hφ hacc (ix1 0)).trans ?_
  refine Finset.sum_congr rfl fun k _ => congrArg w ?_
  funext c
  match c with
  | ⟨0, _⟩ => rfl
  | ⟨1, _⟩ => rfl

/-- 512 entries laid out as a column. -/
theorem toColumn_apply (v : FVec Ideal S512 .f32) (h : S512.ShapeCasts S512x1) (a : Fin 512) :
    shapeCast S512x1 v h (ix2 a 0) = v (ix1 a) :=
  shapeCast_apply v h _ _ (by
    rw [Shape.rowMajor_val_two, Shape.rowMajor_val_one]
    show a.val = a.val * 1 + 0
    omega)

/-- The two sums one after the other: the total of the table. -/
theorem total_apply (src : FVec Ideal S512x512 .f32) (h1 : S512x512.Reduces [1] S512) (hφ : FKind.Formats .f32)
    (hacc : (0x00000000#32 : BitVec 32) = FKind.add.neutral .f32 hφ) (c1 : S512.ShapeCasts S512x1)
    (h0 : S512x1.Reduces [0] S1) (c0 : S1.ShapeCasts S1x1) :
    shapeCast S1x1 (multiReduction (F := Ideal) .add [0] S1
        (shapeCast S512x1 (multiReduction (F := Ideal) .add [1] S512 src 0x00000000#32 h1 hφ hacc) c1)
        0x00000000#32 h0 hφ hacc) c0 (ix2 0 0)
      = ∑ a : Fin 512, ∑ b : Fin 512, src (ix2 a b) := by
  refine (shapeCast_a_1a_apply _ c0 0 0).trans ?_
  refine (colSum_apply _ h0 hφ hacc).trans ?_
  refine Finset.sum_congr rfl fun a _ => ?_
  exact (toColumn_apply _ c1 a).trans (rowSum_apply src h1 hφ hacc a)

/-! ## The pair weights of a tile -/

/-- The weight of the pair made of row `a` of the row band and row `b` of the column band at grid point `i`: `1` when
    the labels agree and the first global row number is below the second, else `0`. -/
def msk (i : grid0.Coords) (x4 : Vec Ideal S512x1 .i32) (x5 : Vec Ideal S1x512 .i32) (a b : Fin 512) : EReal :=
  if x4 (ix2 a 0) = x5 (ix2 0 b) ∧ (i 0).val * 512 + a.val < (i 1).val * 512 + b.val then 1 else 0

/-- A 32-bit word of a natural number below 8192, read signed, is that number. -/
theorem toInt_ofNat_small (n : ℕ) (hn : n < 8192) : (BitVec.ofNat 32 n).toInt = (n : ℤ) := by
  have h1 : (BitVec.ofNat 32 n).toNat = n := by
    rw [BitVec.toNat_ofNat]; exact Nat.mod_eq_of_lt (by omega)
  rw [BitVec.toInt_eq_toNat_of_lt (by rw [h1]; omega), h1]

/-- A global row number as a word: position `a` of band `p` is `512 p + a`, with no wrap-around below 8192. -/
theorem rowWord (p a : ℕ) (hp : p < 16) (ha : a < 512) :
    IntOp.addi (BitVec.ofNat 32 a) (Scalar.muli (BitVec.ofNat 32 p) 512#32) = BitVec.ofNat 32 (p * 512 + a) := by
  apply BitVec.eq_of_toNat_eq
  simp only [IntOp.addi, Scalar.muli, IntOp.muli, BitVec.toNat_add, BitVec.toNat_mul, BitVec.toNat_ofNat]
  omega

/-- The weight as the kernel forms it: the two one-bit comparisons joined, then `1.0` or `0.0` chosen by the bit. -/
theorem msk_word (t1 t2 : BitVec 32) (p q a b : ℕ) (hp : p < 16) (hq : q < 16) (ha : a < 512) (hb : b < 512) :
    (Scalar.select (IntOp.andi (IntOp.cmpi .eq t1 t2)
        (IntOp.cmpi .slt (IntOp.addi (BitVec.ofNat 32 a) (Scalar.muli (BitVec.ofNat 32 p) 512#32))
          (IntOp.addi (BitVec.ofNat 32 b) (Scalar.muli (BitVec.ofNat 32 q) 512#32))))
      (Ideal.ofBits .f32 0x3F800000#32) (Ideal.ofBits .f32 0x00000000#32) : EReal)
      = if t1 = t2 ∧ p * 512 + a < q * 512 + b then 1 else 0 := by
  rw [rowWord p a hp ha, rowWord q b hq hb]
  have hlt : IntOp.cmpi .slt (BitVec.ofNat 32 (p * 512 + a)) (BitVec.ofNat 32 (q * 512 + b)) = 1#1
      ↔ p * 512 + a < q * 512 + b := by
    rw [IntOp.cmpi_slt, toInt_ofNat_small _ (by omega), toInt_ofNat_small _ (by omega)]
    exact Int.ofNat_lt
  by_cases h : t1 = t2 ∧ p * 512 + a < q * 512 + b
  · rw [if_pos h, IntOp.andi_eq_one.mpr ⟨IntOp.cmpi_eq.mpr h.1, hlt.mpr h.2⟩, select_one]
    exact Ideal.ofBits_one_f32
  · rw [if_neg h]
    have hw : ¬ IntOp.andi (IntOp.cmpi .eq t1 t2)
        (IntOp.cmpi .slt (BitVec.ofNat 32 (p * 512 + a)) (BitVec.ofNat 32 (q * 512 + b))) = 1#1 := by
      rw [IntOp.andi_eq_one, IntOp.cmpi_eq, hlt]; exact h
    rw [eq_zero_of_ne_one hw, select_zero]
    exact Ideal.ofBits_zero_f32

/-- Entry `(a, b)` of the tile's table of weights. -/
theorem weight_apply (i : grid0.Coords) (h0 : (i 0).val < 16) (h1 : (i 1).val < 16)
    (x4 : Vec Ideal S512x1 .i32) (x5 : Vec Ideal S1x512 .i32) (a b : Fin 512) :
    k0_pay1 (F := Ideal) (k0_pay8 (F := Ideal) i x4 x5) (ix2 a b) = msk i x4 x5 a b := by
  unfold k0_pay1 k0_pay8 msk
  dsimp only
  rw [select_apply, broadcast_apply, broadcast_apply]
  show Scalar.select (IntOp.andi (IntOp.cmpi .eq _ _) (IntOp.cmpi .slt (IntOp.addi _ _) (IntOp.addi _ _))) _ _ = _
  rw [shapeCast_self, shapeCast_self, iota_single_apply, iota_single_apply, broadcast_apply, broadcast_apply]
  rw [broadcastTo_apply x4 _ (ix2 a b) (ix2 a 0) (fun c => by match c with | ⟨0, _⟩ => rfl | ⟨1, _⟩ => rfl),
    broadcastTo_1b_ab_apply]
  exact msk_word _ _ _ _ _ _ h0 h1 a.isLt b.isLt

/-! ## The count of a tile -/

/-- The running count after the point: the count before it plus the number of pairs of the tile. -/
theorem pay3_apply (i : grid0.Coords) (h0 : (i 0).val < 16) (h1 : (i 1).val < 16)
    (x4 : Vec Ideal S512x1 .i32) (x5 : Vec Ideal S1x512 .i32) (acc : Vec Ideal S1x1 .f32) :
    k0_pay3 (F := Ideal) (k0_pay8 (F := Ideal) i x4 x5) acc (ix2 0 0)
      = acc (ix2 0 0) + ∑ a : Fin 512, ∑ b : Fin 512, msk i x4 x5 a b := by
  unfold k0_pay3
  dsimp only
  rw [addf_apply, shapeCast_self]
  refine congrArg (acc (ix2 0 0) + ·) ?_
  refine (total_apply _ _ _ _ _ _ _).trans ?_
  exact Finset.sum_congr rfl fun a _ => Finset.sum_congr rfl fun b _ => weight_apply i h0 h1 x4 x5 a b

/-! ## The two tables of inner products -/

theorem lhsIdx0 (j : S512x512.Idx) (q : dot_S512x128_S128x512_S512x512_1_0_0_1_n_n.contr.Idx) :
    (dot_S512x128_S128x512_S512x512_1_0_0_1_n_n.lhsIdx j q 0).val = (j 0).val := by
  unfold DotDims.lhsIdx
  rw [dif_neg (show ¬(0 : Fin S512x128.rank) ∈ dot_S512x128_S128x512_S512x512_1_0_0_1_n_n.lhsBatch by decide),
    dif_pos (show (0 : Fin S512x128.rank) ∈ dot_S512x128_S128x512_S512x512_1_0_0_1_n_n.lhsNonContracting by decide)]
  rfl

theorem rhsIdx1 (j : S512x512.Idx) (q : dot_S512x128_S128x512_S512x512_1_0_0_1_n_n.contr.Idx) :
    (dot_S512x128_S128x512_S512x512_1_0_0_1_n_n.rhsIdx j q 1).val = (j 1).val := by
  unfold DotDims.rhsIdx
  rw [dif_neg (show ¬(1 : Fin S128x512.rank) ∈ dot_S512x128_S128x512_S512x512_1_0_0_1_n_n.rhsBatch by decide),
    dif_pos (show (1 : Fin S128x512.rank) ∈ dot_S512x128_S128x512_S512x512_1_0_0_1_n_n.rhsNonContracting by decide)]
  rfl

/-- A block of rows times the transpose of a block of rows, onto a zero start: entry `(a, b)` is the inner product of
    row `a` of the first block with row `b` of the second (the change of format is the identity on the extended reals). -/
theorem gram_apply (x y : FVec Ideal S512x128 .f32) (c : S512x128.ShapeCasts S512x128) (hb : FTy.bits .bf16 < FTy.bits .f32)
    (ht : S512x128.Transposes [1, 0] S128x512) (a b : Fin 512) :
    matmul dot_S512x128_S128x512_S512x512_1_0_0_1_n_n none
        (truncf .bf16 (shapeCast S512x128 x c) hb : FVec Ideal S512x128 .bf16)
        (transpose S128x512 [1, 0] (truncf .bf16 (shapeCast S512x128 y c) hb : FVec Ideal S512x128 .bf16) ht)
        (constant (F := Ideal) S512x512 .f32 0x00000000#32) (ix2 a b)
      = ∑ d : Fin 128, x (ix2 a d) * y (ix2 b d) := by
  refine (Ideal.matmul_constant_zero_apply dot_S512x128_S128x512_S512x512_1_0_0_1_n_n none _ _ (ix2 a b)).trans ?_
  rw [← Equiv.sum_comp (ValueIdx.contrEquiv1 dot_S512x128_S128x512_S512x512_1_0_0_1_n_n 128 rfl rfl).symm]
  refine Finset.sum_congr rfl fun k _ => ?_
  have hk := ValueIdx.contrEquiv1_symm_val dot_S512x128_S128x512_S512x512_1_0_0_1_n_n 128 rfl rfl k
  have el : dot_S512x128_S128x512_S512x512_1_0_0_1_n_n.lhsIdx (ix2 a b)
      ((ValueIdx.contrEquiv1 dot_S512x128_S128x512_S512x512_1_0_0_1_n_n 128 rfl rfl).symm k) = ix2 a k :=
    funext fun e => Fin.ext (by
      match e with
      | ⟨0, _⟩ => exact lhsIdx0 _ _
      | ⟨1, _⟩ => exact (dot_S512x128_S128x512_S512x512_1_0_0_1_n_n.lhsIdx_val_of_single rfl _ _).trans hk)
  have er : dot_S512x128_S128x512_S512x512_1_0_0_1_n_n.rhsIdx (ix2 a b)
      ((ValueIdx.contrEquiv1 dot_S512x128_S128x512_S512x512_1_0_0_1_n_n 128 rfl rfl).symm k) = ix2 k b :=
    funext fun e => Fin.ext (by
      match e with
      | ⟨0, _⟩ => exact (dot_S512x128_S128x512_S512x512_1_0_0_1_n_n.rhsIdx_val_of_single rfl _ _).trans hk
      | ⟨1, _⟩ => exact rhsIdx1 _ _)
  rw [el, er, transpose_ix2_apply, truncf_apply, truncf_apply, shapeCast_self, shapeCast_self]

/-- The first table: rows of the first block against rows of the second. -/
theorem pay6_apply (x y : Vec Ideal S512x128 .f32) (a b : Fin 512) :
    k0_pay6 (F := Ideal) x y (ix2 a b) = ∑ d : Fin 128, x (ix2 a d) * y (ix2 b d) := by
  unfold k0_pay6
  dsimp only
  exact gram_apply x y _ _ _ a b

/-- The second table, the same form. -/
theorem pay7_apply (x y : Vec Ideal S512x128 .f32) (a b : Fin 512) :
    k0_pay7 (F := Ideal) x y (ix2 a b) = ∑ d : Fin 128, x (ix2 a d) * y (ix2 b d) := by
  unfold k0_pay7
  dsimp only
  exact gram_apply x y _ _ _ a b

/-! ## The weighted sum of a tile -/

/-- The running total after the point: the total before it plus the weighted sum, over the pairs of the tile, of the two
    inner products of the pair. -/
theorem pay2_apply (i : grid0.Coords) (h0 : (i 0).val < 16) (h1 : (i 1).val < 16)
    (x0 x1 x2 x3 : Vec Ideal S512x128 .f32) (x4 : Vec Ideal S512x1 .i32) (x5 : Vec Ideal S1x512 .i32)
    (acc : Vec Ideal S1x1 .f32) :
    k0_pay2 (F := Ideal) (k0_pay6 x0 x3) (k0_pay7 x1 x2) (k0_pay8 (F := Ideal) i x4 x5) acc (ix2 0 0)
      = acc (ix2 0 0) + ∑ a : Fin 512, ∑ b : Fin 512, msk i x4 x5 a b
          * ((∑ d : Fin 128, x0 (ix2 a d) * x3 (ix2 b d)) + (∑ d : Fin 128, x1 (ix2 a d) * x2 (ix2 b d))) := by
  unfold k0_pay2
  dsimp only
  rw [addf_apply, shapeCast_self]
  refine congrArg (acc (ix2 0 0) + ·) ?_
  refine (total_apply _ _ _ _ _ _ _).trans ?_
  refine Finset.sum_congr rfl fun a _ => Finset.sum_congr rfl fun b _ => ?_
  rw [mulf_apply, addf_apply, weight_apply i h0 h1 x4 x5 a b, pay6_apply, pay7_apply]

end Cert.KernelIdeal.Tile

end
-- ==== Proof.KernelIdeal.Blocks.lean ====
/-
  The windows' blocks on the 16 × 16 grid, read at an index: grid point `t` has row band `t / 16` and column band
  `t % 16`; a window's block at `t` holds the 512 rows (or labels) of the band its index map names.
-/
import proofs.«125551_j8486855377129_1_alg».proof.Proof.Gen.KernelIdeal.Points
import proofs.«125551_j8486855377129_1_alg».proof.Proof.Gen.KernelIdeal.Launch
import proofs.«125551_j8486855377129_1_alg».proof.Proof.Spec
import Idealize.ShloMosaic.Lib.Pipeline.Value
import Idealize.ShloMosaic.Lib.ValueIdx

noncomputable section

open Idealize.ShloMosaic Idealize.ShloMosaic.ValueIdx

namespace Cert.KernelIdeal.Blocks

open Cert.KernelIdeal Cert.KernelIdeal.Gen Cert.PairLoss
open Idealize.SL.Sem Idealize.ShloMosaic.TcCoe

/-! ## The grid's coordinates and the index maps, decided over the 256 points -/

/-- Point `t` of the row-major 16 × 16 grid has coordinates `(t / 16, t % 16)`. -/
theorem coords_val : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- The block indices of the six input windows: windows 0, 1 and 4 follow the row band, windows 2, 3 and 5 the column band. -/
theorem idx_facts : ∀ t : Fin cfg0.N,
    win0_0.index t (0 : Fin 2) = t.val / 16 % 16 ∧ win0_0.index t (1 : Fin 2) = 0
    ∧ win0_1.index t (0 : Fin 2) = t.val / 16 % 16 ∧ win0_1.index t (1 : Fin 2) = 0
    ∧ win0_2.index t (0 : Fin 2) = t.val % 16 ∧ win0_2.index t (1 : Fin 2) = 0
    ∧ win0_3.index t (0 : Fin 2) = t.val % 16 ∧ win0_3.index t (1 : Fin 2) = 0
    ∧ win0_4.index t (0 : Fin 2) = t.val / 16 % 16 ∧ win0_4.index t (1 : Fin 2) = 0
    ∧ win0_5.index t (0 : Fin 2) = 0 ∧ win0_5.index t (1 : Fin 2) = t.val % 16 :=
  (by decide +kernel : ∀ t : Fin grid0.N, _)

/-- Grid point `t` lies below 256, its two coordinates below 16, and they are the row band and the column band of `t`. -/
theorem point_lt (t : Fin cfg0.N) : t.val < 256 := (by decide +kernel : ∀ t : Fin grid0.N, t.val < 256) t

theorem coords_lt (t : Fin cfg0.N) : (grid0.coords t 0).val < 16 ∧ (grid0.coords t 1).val < 16 := by
  obtain ⟨h0, h1⟩ := coords_val t
  have := point_lt t
  omega

theorem coords_band (t : Fin cfg0.N) :
    (grid0.coords t 0).val = (bandP t.val).val ∧ (grid0.coords t 1).val = (bandQ t.val).val := by
  obtain ⟨h0, h1⟩ := coords_val t
  have := point_lt t
  constructor
  · show (grid0.coords t 0).val = t.val / 16 % 16; omega
  · show (grid0.coords t 1).val = t.val % 16; omega

/-! ## The blocks read at an index -/

/-- Window 0's block at `t` (first input, by the row band): row `a` of the block is row `512 · (t / 16) + a`. -/
theorem blk0 (t : Fin cfg0.N) (A : S8192x128.Idx → EReal) (a : Fin 512) (d : Fin 128) :
    ((cfg0.win 0).blk t).view.read (Elt Ideal) A (ix2 a d) = A (ix2 (row (bandP t.val) a) d) := by
  show A (((cfg0.win 0).blk t).view.emb (ix2 a d)) = _
  refine congrArg A (funext fun c => Fin.ext ?_)
  obtain ⟨e0, e1, -⟩ := idx_facts t
  match c with
  | ⟨0, _⟩ => show win0_0.index t (0 : Fin 2) * 512 + 1 * a.val = t.val / 16 % 16 * 512 + a.val; omega
  | ⟨1, _⟩ => show win0_0.index t (1 : Fin 2) * 128 + 1 * d.val = d.val; omega

/-- Window 1's block at `t` (second input, by the row band). -/
theorem blk1 (t : Fin cfg0.N) (A : S8192x128.Idx → EReal) (a : Fin 512) (d : Fin 128) :
    ((cfg0.win 1).blk t).view.read (Elt Ideal) A (ix2 a d) = A (ix2 (row (bandP t.val) a) d) := by
  show A (((cfg0.win 1).blk t).view.emb (ix2 a d)) = _
  refine congrArg A (funext fun c => Fin.ext ?_)
  obtain ⟨-, -, e0, e1, -⟩ := idx_facts t
  match c with
  | ⟨0, _⟩ => show win0_1.index t (0 : Fin 2) * 512 + 1 * a.val = t.val / 16 % 16 * 512 + a.val; omega
  | ⟨1, _⟩ => show win0_1.index t (1 : Fin 2) * 128 + 1 * d.val = d.val; omega

/-- Window 2's block at `t` (first input, by the column band): row `a` of the block is row `512 · (t % 16) + a`. -/
theorem blk2 (t : Fin cfg0.N) (A : S8192x128.Idx → EReal) (a : Fin 512) (d : Fin 128) :
    ((cfg0.win 2).blk t).view.read (Elt Ideal) A (ix2 a d) = A (ix2 (row (bandQ t.val) a) d) := by
  show A (((cfg0.win 2).blk t).view.emb (ix2 a d)) = _
  refine congrArg A (funext fun c => Fin.ext ?_)
  obtain ⟨-, -, -, -, e0, e1, -⟩ := idx_facts t
  match c with
  | ⟨0, _⟩ => show win0_2.index t (0 : Fin 2) * 512 + 1 * a.val = t.val % 16 * 512 + a.val; omega
  | ⟨1, _⟩ => show win0_2.index t (1 : Fin 2) * 128 + 1 * d.val = d.val; omega

/-- Window 3's block at `t` (second input, by the column band). -/
theorem blk3 (t : Fin cfg0.N) (A : S8192x128.Idx → EReal) (a : Fin 512) (d : Fin 128) :
    ((cfg0.win 3).blk t).view.read (Elt Ideal) A (ix2 a d) = A (ix2 (row (bandQ t.val) a) d) := by
  show A (((cfg0.win 3).blk t).view.emb (ix2 a d)) = _
  refine congrArg A (funext fun c => Fin.ext ?_)
  obtain ⟨-, -, -, -, -, -, e0, e1, -⟩ := idx_facts t
  match c with
  | ⟨0, _⟩ => show win0_3.index t (0 : Fin 2) * 512 + 1 * a.val = t.val % 16 * 512 + a.val; omega
  | ⟨1, _⟩ => show win0_3.index t (1 : Fin 2) * 128 + 1 * d.val = d.val; omega

/-- Window 4's block at `t` (the labels as a column, by the row band). -/
theorem blk4 (t : Fin cfg0.N) (A : S8192x1.Idx → BitVec 32) (a : Fin 512) :
    ((cfg0.win 4).blk t).view.read (Elt Ideal) A (ix2 a 0) = A (ix2 (row (bandP t.val) a) 0) := by
  show A (((cfg0.win 4).blk t).view.emb (ix2 a 0)) = _
  refine congrArg A (funext fun c => Fin.ext ?_)
  obtain ⟨-, -, -, -, -, -, -, -, e0, e1, -⟩ := idx_facts t
  match c with
  | ⟨0, _⟩ => show win0_4.index t (0 : Fin 2) * 512 + 1 * a.val = t.val / 16 % 16 * 512 + a.val; omega
  | ⟨1, _⟩ => show win0_4.index t (1 : Fin 2) * 1 + 1 * 0 = 0; omega

/-- Window 5's block at `t` (the labels as a row, by the column band). -/
theorem blk5 (t : Fin cfg0.N) (A : S1x8192.Idx → BitVec 32) (b : Fin 512) :
    ((cfg0.win 5).blk t).view.read (Elt Ideal) A (ix2 0 b) = A (ix2 0 (row (bandQ t.val) b)) := by
  show A (((cfg0.win 5).blk t).view.emb (ix2 0 b)) = _
  refine congrArg A (funext fun c => Fin.ext ?_)
  obtain ⟨-, -, -, -, -, -, -, -, -, -, e0, e1⟩ := idx_facts t
  match c with
  | ⟨0, _⟩ => show win0_5.index t (0 : Fin 2) * 1 + 1 * 0 = 0; omega
  | ⟨1, _⟩ => show win0_5.index t (1 : Fin 2) * 512 + 1 * b.val = t.val % 16 * 512 + b.val; omega

end Cert.KernelIdeal.Blocks

end
-- ==== Proof.KernelIdeal.Accum.lean ====
/-
  The accumulation over the grid: what the two one-element accumulators hold after the body at position `n` is the
  running weighted sum and the running pair count of the tiles `0 … n`, in the order the grid visits them. A point's
  input blocks are the rows `512 p + a` (by the grid's first coordinate `p`) and `512 q + b` (by its second, `q`) of
  the two normalised arrays and of the labels, so the tile's two totals are those of tile `(p, q)` of the pair table.
-/
import proofs.«125551_j8486855377129_1_alg».proof.Proof.KernelIdeal.Pieces
import proofs.«125551_j8486855377129_1_alg».proof.Proof.KernelIdeal.Tile
import proofs.«125551_j8486855377129_1_alg».proof.Proof.KernelIdeal.Blocks
import proofs.«125551_j8486855377129_1_alg».proof.Proof.Spec

set_option maxRecDepth 16384

noncomputable section

open scoped BigOperators
open Idealize.ShloMosaic Idealize.ShloMosaic.TcCoe Idealize.ShloMosaic.ValueIdx Idealize.SL.Sem

namespace Cert.KernelIdeal.Accum

open Cert.KernelIdeal Cert.KernelIdeal.Gen Cert.KernelIdeal.Body Cert.KernelIdeal.Data Cert.KernelIdeal.Tile Cert.PairLoss

/-! ## A tile's two totals, from what its blocks are -/

/-- Blocks that are rows `512 p + a` and `512 q + b` of the arrays and of the labels, at a point whose coordinates are
    `(p, q)`, give the weighted sum and the count of tile `(p, q)`. -/
theorem tile_of_blocks (pn zn : PairLoss.Rows) (tg : PairLoss.Labels) (p q : Fin 16) (i : grid0.Coords)
    (hi0 : (i 0).val = p.val) (hi1 : (i 1).val = q.val)
    (x0 x1 x2 x3 : Vec Ideal S512x128 .f32) (x4 : Vec Ideal S512x1 .i32) (x5 : Vec Ideal S1x512 .i32)
    (h0 : ∀ (a : Fin 512) (d : Fin 128), x0 (ix2 a d) = pn (ix2 (row p a) d))
    (h1 : ∀ (a : Fin 512) (d : Fin 128), x1 (ix2 a d) = zn (ix2 (row p a) d))
    (h2 : ∀ (b : Fin 512) (d : Fin 128), x2 (ix2 b d) = pn (ix2 (row q b) d))
    (h3 : ∀ (b : Fin 512) (d : Fin 128), x3 (ix2 b d) = zn (ix2 (row q b) d))
    (h4 : ∀ a : Fin 512, x4 (ix2 a 0) = tg (ix1 (row p a)))
    (h5 : ∀ b : Fin 512, x5 (ix2 0 b) = tg (ix1 (row q b))) :
    (∑ a : Fin 512, ∑ b : Fin 512, msk i x4 x5 a b
        * ((∑ d : Fin 128, x0 (ix2 a d) * x3 (ix2 b d)) + (∑ d : Fin 128, x1 (ix2 a d) * x2 (ix2 b d)))
      = tileSum pn zn tg p q)
    ∧ (∑ a : Fin 512, ∑ b : Fin 512, msk i x4 x5 a b) = tileCnt tg p q := by
  have hm : ∀ a b : Fin 512, msk i x4 x5 a b = ind tg (row p a) (row q b) := fun a b => by
    unfold msk ind
    rw [h4 a, h5 b, hi0, hi1]
    rfl
  refine ⟨?_, ?_⟩
  · unfold tileSum
    refine Finset.sum_congr rfl fun a _ => Finset.sum_congr rfl fun b _ => ?_
    rw [hm a b]
    simp only [h0, h1, h2, h3]
    rfl
  · unfold tileCnt
    exact Finset.sum_congr rfl fun a _ => Finset.sum_congr rfl fun b _ => hm a b

/-! ## The tile of a grid point -/

section
variable (V : (c : Dev nD) → (b : Ref sig .tc) → Buf (Elt Ideal) ((c : Thread nD τ).loc b)) (c : Dev nD)

/-- The six input blocks at position `t`, at their literal types: rows of the first normalised array by the grid's first
    coordinate (`X0`) and by its second (`X2`), rows of the second likewise (`X1`, `X3`), the labels as a column by the
    first coordinate (`X4`) and as a row by the second (`X5`). -/
abbrev X0 (t : Fin cfg0.N) : Vec Ideal S512x128 .f32 := iblk V c 0 t
abbrev X1 (t : Fin cfg0.N) : Vec Ideal S512x128 .f32 := iblk V c 1 t
abbrev X2 (t : Fin cfg0.N) : Vec Ideal S512x128 .f32 := iblk V c 2 t
abbrev X3 (t : Fin cfg0.N) : Vec Ideal S512x128 .f32 := iblk V c 3 t
abbrev X4 (t : Fin cfg0.N) : Vec Ideal S512x1 .i32 := iblk V c 4 t
abbrev X5 (t : Fin cfg0.N) : Vec Ideal S1x512 .i32 := iblk V c 5 t

variable (tg : PairLoss.Labels)
  (hrow : ∀ a : Fin 8192, (V c main_v10 : S8192x1.Idx → BitVec 32) (ix2 a 0) = tg (ix1 a))
  (hcol : ∀ b : Fin 8192, (V c main_v11 : S1x8192.Idx → BitVec 32) (ix2 0 b) = tg (ix1 b))

include hrow hcol in
/-- The two totals the body forms at position `t` are those of tile `(t / 16, t % 16)` of the pair table. -/
theorem tile_eq (t : Fin cfg0.N) :
    ((∑ a : Fin 512, ∑ b : Fin 512, msk (grid0.coords t) (X4 V c t) (X5 V c t) a b
        * ((∑ d : Fin 128, X0 V c t (ix2 a d) * X3 V c t (ix2 b d))
          + (∑ d : Fin 128, X1 V c t (ix2 a d) * X2 V c t (ix2 b d))))
      = tileSum (V c main_v4 : PairLoss.Rows) (V c main_v9 : PairLoss.Rows) tg (bandP t.val) (bandQ t.val))
    ∧ (∑ a : Fin 512, ∑ b : Fin 512, msk (grid0.coords t) (X4 V c t) (X5 V c t) a b)
      = tileCnt tg (bandP t.val) (bandQ t.val) :=
  tile_of_blocks (V c main_v4 : PairLoss.Rows) (V c main_v9 : PairLoss.Rows) tg (bandP t.val) (bandQ t.val) (grid0.coords t)
    (Blocks.coords_band t).1 (Blocks.coords_band t).2
    (X0 V c t) (X1 V c t) (X2 V c t) (X3 V c t) (X4 V c t) (X5 V c t)
    (fun a d => Blocks.blk0 t (V c main_v4 : PairLoss.Rows) a d)
    (fun a d => Blocks.blk1 t (V c main_v9 : PairLoss.Rows) a d)
    (fun b d => Blocks.blk2 t (V c main_v4 : PairLoss.Rows) b d)
    (fun b d => Blocks.blk3 t (V c main_v9 : PairLoss.Rows) b d)
    (fun a => (Blocks.blk4 t (V c main_v10 : S8192x1.Idx → BitVec 32) a).trans (hrow _))
    (fun b => (Blocks.blk5 t (V c main_v11 : S1x8192.Idx → BitVec 32) b).trans (hcol _))

/-! ## The running totals -/

include hrow hcol in
/-- After the body at position `n` the first accumulator holds the running weighted sum of tiles `0 … n` and the second
    their running pair count: a zero start at position 0, then one tile added per position. -/
theorem outsAt_eq : ∀ (n : ℕ) (hn : n < cfg0.N),
    ((outsAt V c n hn).1 : S1x1.Idx → EReal) (ix2 0 0)
        = accSum (V c main_v4 : PairLoss.Rows) (V c main_v9 : PairLoss.Rows) tg n
      ∧ ((outsAt V c n hn).2 : S1x1.Idx → EReal) (ix2 0 0) = accCnt tg n
  | 0, hn => by
    obtain ⟨ts, tc⟩ := tile_eq V c tg hrow hcol ⟨0, hn⟩
    obtain ⟨h0, h1⟩ := Blocks.coords_lt ⟨0, hn⟩
    have e : outsAt V c 0 hn = outF V c ⟨0, hn⟩ (Nat.zero_mod _) := rfl
    rw [e, Pieces.outF_eq]
    refine ⟨?_, ?_⟩
    · refine (pay2_apply (grid0.coords ⟨0, hn⟩) h0 h1 (X0 V c ⟨0, hn⟩) (X1 V c ⟨0, hn⟩) (X2 V c ⟨0, hn⟩) (X3 V c ⟨0, hn⟩)
        (X4 V c ⟨0, hn⟩) (X5 V c ⟨0, hn⟩) (k0_pay4 (F := Ideal))).trans ?_
      exact congrArg₂ (· + ·) pay4_apply ts
    · refine (pay3_apply (grid0.coords ⟨0, hn⟩) h0 h1 (X4 V c ⟨0, hn⟩) (X5 V c ⟨0, hn⟩) (k0_pay5 (F := Ideal))).trans ?_
      exact congrArg₂ (· + ·) pay5_apply tc
  | n + 1, hn => by
    have hN : n + 1 < 256 := lt_of_lt_of_eq hn (show cfg0.N = 256 from N_0)
    have hne : ¬(n + 1) % 256 = 0 := by omega
    obtain ⟨ih1, ih2⟩ := outsAt_eq n (Nat.lt_of_succ_lt hn)
    obtain ⟨ts, tc⟩ := tile_eq V c tg hrow hcol ⟨n + 1, hn⟩
    obtain ⟨h0, h1⟩ := Blocks.coords_lt ⟨n + 1, hn⟩
    have e : outsAt V c (n + 1) hn = outR V c ⟨n + 1, hn⟩ hne (outsAt V c n (Nat.lt_of_succ_lt hn)) :=
      (dif_neg hne).trans rfl
    rw [e, Pieces.outR_eq]
    refine ⟨?_, ?_⟩
    · refine (pay2_apply (grid0.coords ⟨n + 1, hn⟩) h0 h1 (X0 V c ⟨n + 1, hn⟩) (X1 V c ⟨n + 1, hn⟩) (X2 V c ⟨n + 1, hn⟩)
        (X3 V c ⟨n + 1, hn⟩) (X4 V c ⟨n + 1, hn⟩) (X5 V c ⟨n + 1, hn⟩) (outsAt V c n (Nat.lt_of_succ_lt hn)).1).trans ?_
      exact congrArg₂ (· + ·) ih1 ts
    · refine (pay3_apply (grid0.coords ⟨n + 1, hn⟩) h0 h1 (X4 V c ⟨n + 1, hn⟩) (X5 V c ⟨n + 1, hn⟩)
        (outsAt V c n (Nat.lt_of_succ_lt hn)).2).trans ?_
      exact congrArg₂ (· + ·) ih2 tc

end

end Cert.KernelIdeal.Accum

end
-- ==== Proof.KernelIdeal.Flush.lean ====
/-
  The write-back of the two one-element result arrays: each is written back after the last grid point only, its one
  block being the whole array, so after the run it holds what the body left in the accumulator at point 255.
-/
import proofs.«125551_j8486855377129_1_alg».proof.Proof.KernelIdeal.Run
import Idealize.ShloMosaic.Lib.ValueIdx
import Idealize.ShloMosaic.Lib.Pipeline.Value

noncomputable section

namespace Cert.KernelIdeal.Flush

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Data
variable {F : FTy → Type} [FloatOps F]

variable (V : (c : Dev nD) → (b : Ref sig .tc) → Buf (Elt F) ((c : Thread nD τ).loc b))

/-- A `1 × 1` array has one index. -/
theorem idx11_eq (k k' : S1x1.Idx) : k = k' := by
  funext a
  match a with
  | ⟨0, h⟩ => exact Fin.ext (by have h1 : (k ⟨0, h⟩).val < 1 := (k ⟨0, h⟩).isLt; have h2 : (k' ⟨0, h⟩).val < 1 := (k' ⟨0, h⟩).isLt; omega)
  | ⟨1, h⟩ => exact Fin.ext (by have h1 : (k ⟨1, h⟩).val < 1 := (k ⟨1, h⟩).isLt; have h2 : (k' ⟨1, h⟩).val < 1 := (k' ⟨1, h⟩).isLt; omega)

/-! ## Window 6: the weighted sum -/

/-- The one write-back of window 6, after the last point, writes what the body left there: the block is the whole
    one-element array. -/
theorem flushed6_eq (c : Dev nD) (h : 255 < cfg0.N) (t : Fin cfg0.N) (hf : (cfg0.win 6).flush t = true) :
    (dat V c).flushed 6 t = ((cfg0.win 6).blk t).view.read (Elt F)
      ((outsAt V c 255 h).1 : Buf (Elt F) ((cfg0.win 6).arr.view.loc (c.tc : Thread nD τ))) := by
  have hN : t.val < 256 := lt_of_lt_of_eq t.isLt (show cfg0.N = 256 from N_0)
  have h255 : t.val = 255 := by have := (flush0_6 t).mp hf; omega
  obtain rfl : t = ⟨255, h⟩ := Fin.ext h255
  show (cfg0.win 6).cut (grid0.coords ⟨255, h⟩) ((dat V c).after 6 ⟨255, h⟩) = _
  rw [after6]
  funext y
  exact congrArg (outsAt V c 255 h).1
    (idx11_eq ((cfg0.win 6).xinj (grid0.coords ⟨255, h⟩) y) (((cfg0.win 6).blk ⟨255, h⟩).view.emb y))

/-- The last point's block covers the array's one index. -/
theorem cover6 (c : Dev nD) (h : 255 < cfg0.N) (i : ((cfg0.win 6).arr.view.loc (c.tc : Thread nD τ)).2.ty.Idx) :
    ∃ t : Fin cfg0.N, (cfg0.win 6).flush t = true ∧ i ∈ ((cfg0.win 6).blk t).view.set := by
  refine ⟨⟨255, h⟩, (flush0_6 _).mpr rfl, ?_⟩
  have hm := ((cfg0.win 6).blk ⟨255, h⟩).view.emb_mem_set (ix2 0 0)
  have he : ((cfg0.win 6).blk ⟨255, h⟩).view.emb (ix2 0 0) = i := idx11_eq _ _
  exact he ▸ hm

/-- After the run the first result array holds what the body left in its accumulator at the last point. -/
theorem arrAt6_eq (c : Dev nD) (h : 255 < cfg0.N) :
    (dat V c).arrAt 6 cfg0.N = ((outsAt V c 255 h).1 : Buf (Elt F) ((cfg0.win 6).arr.view.loc (c.tc : Thread nD τ))) :=
  (dat V c).arrAt_eq_of_cover 6 _ (flushed6_eq V c h) (cover6 c h)

theorem arrAt6 (c : Dev nD) (h : 255 < cfg0.N) :
    ((dat V c).arrAt 6 cfg0.N : S1x1.Idx → Elt F .f32) (ix2 0 0) = ((outsAt V c 255 h).1 : S1x1.Idx → Elt F .f32) (ix2 0 0) :=
  congrFun (arrAt6_eq V c h) (ix2 0 0)

/-! ## Window 7: the pair count -/

theorem flushed7_eq (c : Dev nD) (h : 255 < cfg0.N) (t : Fin cfg0.N) (hf : (cfg0.win 7).flush t = true) :
    (dat V c).flushed 7 t = ((cfg0.win 7).blk t).view.read (Elt F)
      ((outsAt V c 255 h).2 : Buf (Elt F) ((cfg0.win 7).arr.view.loc (c.tc : Thread nD τ))) := by
  have hN : t.val < 256 := lt_of_lt_of_eq t.isLt (show cfg0.N = 256 from N_0)
  have h255 : t.val = 255 := by have := (flush0_7 t).mp hf; omega
  obtain rfl : t = ⟨255, h⟩ := Fin.ext h255
  show (cfg0.win 7).cut (grid0.coords ⟨255, h⟩) ((dat V c).after 7 ⟨255, h⟩) = _
  rw [after7]
  funext y
  exact congrArg (outsAt V c 255 h).2
    (idx11_eq ((cfg0.win 7).xinj (grid0.coords ⟨255, h⟩) y) (((cfg0.win 7).blk ⟨255, h⟩).view.emb y))

theorem cover7 (c : Dev nD) (h : 255 < cfg0.N) (i : ((cfg0.win 7).arr.view.loc (c.tc : Thread nD τ)).2.ty.Idx) :
    ∃ t : Fin cfg0.N, (cfg0.win 7).flush t = true ∧ i ∈ ((cfg0.win 7).blk t).view.set := by
  refine ⟨⟨255, h⟩, (flush0_7 _).mpr rfl, ?_⟩
  have hm := ((cfg0.win 7).blk ⟨255, h⟩).view.emb_mem_set (ix2 0 0)
  have he : ((cfg0.win 7).blk ⟨255, h⟩).view.emb (ix2 0 0) = i := idx11_eq _ _
  exact he ▸ hm

/-- After the run the second result array holds what the body left in its accumulator at the last point. -/
theorem arrAt7_eq (c : Dev nD) (h : 255 < cfg0.N) :
    (dat V c).arrAt 7 cfg0.N = ((outsAt V c 255 h).2 : Buf (Elt F) ((cfg0.win 7).arr.view.loc (c.tc : Thread nD τ))) :=
  (dat V c).arrAt_eq_of_cover 7 _ (flushed7_eq V c h) (cover7 c h)

theorem arrAt7 (c : Dev nD) (h : 255 < cfg0.N) :
    ((dat V c).arrAt 7 cfg0.N : S1x1.Idx → Elt F .f32) (ix2 0 0) = ((outsAt V c 255 h).2 : S1x1.Idx → Elt F .f32) (ix2 0 0) :=
  congrFun (arrAt7_eq V c h) (ix2 0 0)

end Cert.KernelIdeal.Flush

end
-- ==== Proof.KernelIdeal.Loss.lean ====
/-
  The idealized kernel's result is the pair loss of the normalised rows, tile by tile: the host lines before the region
  normalise the two arrays and lay the labels out as a column and as a row; the region adds one tile's two totals at each of
  its 256 points; the write-back after the last point leaves the totals; the closing host lines form
  `(-1/2 · sum) / max count 1`.
-/
import proofs.«125551_j8486855377129_1_alg».proof.Proof.KernelIdeal.Run
import proofs.«125551_j8486855377129_1_alg».proof.Proof.KernelIdeal.HostValue
import proofs.«125551_j8486855377129_1_alg».proof.Proof.KernelIdeal.Accum
import proofs.«125551_j8486855377129_1_alg».proof.Proof.KernelIdeal.Flush
import proofs.«125551_j8486855377129_1_alg».proof.Proof.Spec

noncomputable section

namespace Cert.KernelIdeal.Loss

open Idealize.ShloMosaic Idealize.ShloMosaic.TcCoe Idealize.ShloMosaic.ValueIdx
open Idealize.SL.Sem
open Cert.KernelIdeal Cert.KernelIdeal.Gen Cert.KernelIdeal.Data Cert.KernelIdeal.Run Cert.PairLoss

variable (m : (ℓ : Loc nD τ sig) → Buf (Elt Ideal) ℓ) (ρ : Dev nD → PrngReg)

/-- The launch contents of the three arguments on core `c`. -/
abbrev ps (c : Dev nD) : Rows := m ((c.tc : Thread nD τ).loc main_arg0)
abbrev zs (c : Dev nD) : Rows := m ((c.tc : Thread nD τ).loc main_arg1)
abbrev tg (c : Dev nD) : Cert.PairLoss.Labels := m ((c.tc : Thread nD τ).loc main_arg2)

/-- The region is entered with the two arrays normalised and the labels laid out as a column and as a row. -/
theorem entry_pn (c : Dev nD) : (V4 m ρ c main_v4 : Rows) = nrm (ps m c) := HostValue.W4_v4 (W0 m ρ c)
theorem entry_zn (c : Dev nD) : (V4 m ρ c main_v9 : Rows) = nrm (zs m c) := HostValue.W4_v9 (W0 m ρ c)
theorem entry_col (c : Dev nD) (a : Fin 8192) : (V4 m ρ c main_v10 : S8192x1.Idx → BitVec 32) (ix2 a 0) = tg m c (ix1 a) :=
  HostValue.W4_v10 (W0 m ρ c) a
theorem entry_row (c : Dev nD) (b : Fin 8192) : (V4 m ρ c main_v11 : S1x8192.Idx → BitVec 32) (ix2 0 b) = tg m c (ix1 b) :=
  HostValue.W4_v11 (W0 m ρ c) b

/-- The result buffer's last contents: the loss of the normalised rows. -/
theorem result_eq (c : Dev nD) :
    (W6 m ρ c (Proc.devRef .tc main_v17) : S_.Idx → EReal) = fun _ => loss (nrm (ps m c)) (nrm (zs m c)) (tg m c) := by
  have h255 : 255 < cfg0.N := by have h : cfg0.N = 256 := N_0; omega
  obtain ⟨hs, hc⟩ := Accum.outsAt_eq (V4 m ρ) c (tg m c) (entry_col m ρ c) (entry_row m ρ c) 255 h255
  rw [entry_pn, entry_zn] at hs
  refine (HostValue.tail_v17 (W5 m ρ c)).trans ?_
  rw [W5_sum, W5_cnt]
  funext _
  show lossOf (((dat (V4 m ρ) c).arrAt 6 cfg0.N : S1x1.Idx → EReal) (ix2 0 0)) (((dat (V4 m ρ) c).arrAt 7 cfg0.N : S1x1.Idx → EReal) (ix2 0 0)) = _
  rw [Flush.arrAt6 (V4 m ρ) c h255, Flush.arrAt7 (V4 m ρ) c h255, hs, hc]
  rfl

/-- THE RUN WITH ITS VALUE: the idealized kernel terminates with the loss in its result buffer and its arguments as launched. -/
theorem run_loss : θ_run (defs (F := Ideal)) (onTc (τ := τ) (main (F := Ideal))) ⟨m, fun _ => 0, ρ⟩ (fun r => ∀ c : Dev nD,
      r.2.mem ((c.tc : Thread nD τ).loc main_v17) = (fun _ => loss (nrm (ps m c)) (nrm (zs m c)) (tg m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m ρ c), (h c).2⟩) (run_result (F := Ideal) m ρ)

end Cert.KernelIdeal.Loss

end
-- ==== Proof.RefLoss.lean ====
/-
  The reference's result, read one operation at a time, is the pair loss of the normalised rows summed over the
  whole pair table (`Cert.PairLoss.refLoss`).
-/
import proofs.«125551_j8486855377129_1_alg».proof.Proof.Gen.ReferenceIdeal.Run
import proofs.«125551_j8486855377129_1_alg».proof.Proof.Gen.ReferenceIdeal.Read
import proofs.«125551_j8486855377129_1_alg».proof.Proof.Spec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.ReferenceIdeal.RefValue

open Cert.ReferenceIdeal Cert.ReferenceIdeal.Gen Cert.ReferenceIdeal.Read Cert.PairLoss
open Idealize.SL.Sem Idealize.ShloMosaic.TcCoe Idealize.ShloMosaic.StableHlo

/-- A 32-bit word of a natural number below 8192, read signed, is that number. -/
theorem toInt_ofNat_small (a : ℕ) (ha : a < 8192) : (BitVec.ofNat 32 a).toInt = (a : ℤ) := by
  have h1 : (BitVec.ofNat 32 a).toNat = a := by
    rw [BitVec.toNat_ofNat]; exact Nat.mod_eq_of_lt (by omega)
  rw [BitVec.toInt_eq_toNat_of_lt (by rw [h1]; omega), h1]

/-- The strict upper triangle as a one-bit word: for positions below 8192, "row ≥ column" selects 0, else 1. -/
theorem triu_word (a b : ℕ) (ha : a < 8192) (hb : b < 8192) :
    Scalar.select (IntOp.cmpi .sge (IntOp.addi (BitVec.ofNat 32 a) 0#32) (BitVec.ofNat 32 b)) (0#1 : BitVec 1) 1#1
      = if a < b then 1#1 else 0#1 := by
  have hz : IntOp.addi (BitVec.ofNat 32 a) 0#32 = BitVec.ofNat 32 a := by
    unfold IntOp.addi; exact BitVec.add_zero _
  rw [hz]
  by_cases h : a < b
  · rw [if_pos h]
    have hc : ¬ IntOp.cmpi .sge (BitVec.ofNat 32 a) (BitVec.ofNat 32 b) = 1#1 := by
      rw [IntOp.cmpi_sge, toInt_ofNat_small a ha, toInt_ofNat_small b hb]; omega
    rw [eq_zero_of_ne_one hc, select_zero]
  · rw [if_neg h]
    have hc : IntOp.cmpi .sge (BitVec.ofNat 32 a) (BitVec.ofNat 32 b) = 1#1 := by
      rw [IntOp.cmpi_sge, toInt_ofNat_small a ha, toInt_ofNat_small b hb]; omega
    rw [hc, select_one]

/-- The pair weight as a word converted to a number. -/
theorem ind_word (t1 t2 : BitVec 32) (a b : ℕ) (ha : a < 8192) (hb : b < 8192) :
    (FloatOps.uitofp (F := Ideal) .f32 (IntOp.andi (IntOp.cmpi .eq t1 t2)
      (Scalar.select (IntOp.cmpi .sge (IntOp.addi (BitVec.ofNat 32 a) 0#32) (BitVec.ofNat 32 b)) (0#1 : BitVec 1) 1#1)) : EReal)
      = if t1 = t2 ∧ a < b then 1 else 0 := by
  rw [triu_word a b ha hb]
  by_cases h : t1 = t2 ∧ a < b
  · rw [if_pos h]
    have hw : IntOp.andi (IntOp.cmpi .eq t1 t2) (if a < b then 1#1 else 0#1) = 1#1 :=
      IntOp.andi_eq_one.mpr ⟨IntOp.cmpi_eq.mpr h.1, if_pos h.2⟩
    rw [hw]
    show (((1#1 : BitVec 1).toNat : ℝ) : EReal) = 1
    norm_num
  · rw [if_neg h]
    have hw : ¬ IntOp.andi (IntOp.cmpi .eq t1 t2) (if a < b then 1#1 else 0#1) = 1#1 := by
      rw [IntOp.andi_eq_one, IntOp.cmpi_eq]
      rintro ⟨h1, h2⟩
      by_cases hab : a < b
      · exact h ⟨h1, hab⟩
      · rw [if_neg hab] at h2; exact absurd h2 (by decide)
    rw [eq_zero_of_ne_one hw]
    show (((0#1 : BitVec 1).toNat : ℝ) : EReal) = 0
    norm_num

/-! ## The normalised rows -/

theorem idx_norm0 (j : S8192x128.Idx) (k : Fin 128) :
    idx_main_call0_v1 (idx_main_call0_v2 (idx_main_v3 j)) k = ix2 (j 0) k :=
  funext fun a => by match a with | ⟨0, _⟩ => rfl | ⟨1, _⟩ => rfl

theorem idx_norm1 (j : S8192x128.Idx) (k : Fin 128) :
    idx_main_call1_v1 (idx_main_call1_v2 (idx_main_v8 j)) k = ix2 (j 0) k :=
  funext fun a => by match a with | ⟨0, _⟩ => rfl | ⟨1, _⟩ => rfl

/-- The first argument divided row by row by its clamped Euclidean norm. -/
theorem v4_eq (x0 : FVec Ideal S8192x128 .f32) : val_main_v4 (F := Ideal) x0 = nrm x0 := by
  funext j
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, idx_norm0]
  rfl

/-- The second argument divided row by row by its clamped Euclidean norm. -/
theorem v9_eq (x1 : FVec Ideal S8192x128 .f32) : val_main_v9 (F := Ideal) x1 = nrm x1 := by
  funext j
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, idx_norm1]
  rfl

/-! ## The table of inner products -/

theorem lidx_eq (i : S8192x8192.Idx) (k : Fin 128) : lidx_main_v10 i k = ix2 (i 0) k :=
  funext fun a => by match a with | ⟨0, _⟩ => rfl | ⟨1, _⟩ => rfl

theorem ridx_eq (i : S8192x8192.Idx) (k : Fin 128) : ridx_main_v10 i k = ix2 (i 1) k :=
  funext fun a => by match a with | ⟨0, _⟩ => rfl | ⟨1, _⟩ => rfl

/-- Entry `(i, j)` of the contraction is the inner product of normalised row `i` of the first argument with
    normalised row `j` of the second. -/
theorem v10_eq (x0 x1 : FVec Ideal S8192x128 .f32) (i : S8192x8192.Idx) :
    val_main_v10 (F := Ideal) x0 x1 i = dot (nrm x0) (nrm x1) (i 0) (i 1) := by
  rw [val_main_v10_apply, v4_eq, v9_eq]
  simp only [lidx_eq, ridx_eq]
  rfl

/-! ## The pair weights -/

theorem idx_lab0 (i : S8192x8192.Idx) : idx_main_v11 (idx_main_v13 i) = ix1 (i 0) :=
  funext fun a => by match a with | ⟨0, _⟩ => rfl

theorem idx_lab1 (i : S8192x8192.Idx) : idx_main_v12 (idx_main_v14 i) = ix1 (i 1) :=
  funext fun a => by match a with | ⟨0, _⟩ => rfl

/-- Entry `(i, j)` of the mask, as a number, is the weight of the pair `(i, j)`. -/
theorem v19_eq (x2 : IVec S8192 32) (i : S8192x8192.Idx) :
    val_main_v19 (F := Ideal) x2 i = ind x2 (i 0) (i 1) := by
  rw [val_main_v19_apply, val_main_v18_apply, val_main_v15_apply, val_main_v17_apply, val_main_call2_v4_apply,
    val_main_call2_v2_apply, val_main_call2_v0_apply, val_main_call2_v3_apply, val_main_call2_v1_apply,
    val_main_call2_c_apply, val_main_call2_v5_apply, val_main_call2_c_0_apply, val_main_v16_apply, val_main_c_apply,
    val_main_v13_apply, val_main_v11_apply, val_main_v14_apply, val_main_v12_apply, idx_lab0, idx_lab1]
  exact ind_word _ _ _ _ (i 0).isLt (i 1).isLt

/-! ## The three totals -/

/-- The number of pairs: the weights summed over the whole table, onto a zero start. -/
theorem v20_eq (x2 : IVec S8192 32) (i : S_.Idx) :
    val_main_v20 (F := Ideal) x2 i = ∑ a : Fin 8192, ∑ b : Fin 8192, ind x2 a b := by
  rw [val_main_v20_apply, val_main_cst_1_apply, ValueIdx.sum_idx2]
  simp only [v19_eq]
  rw [Ideal.ofBits_def, Ideal.ofBits_zero_f32, zero_add]

/-- The number of pairs, at least one. -/
theorem v21_eq (x2 : IVec S8192 32) (i : S_.Idx) : val_main_v21 (F := Ideal) x2 i = refPairs x2 := by
  rw [val_main_v21_apply, v20_eq, val_main_cst_2_apply]
  rfl

/-- The weighted inner products summed over the whole table. -/
theorem v23_eq (x0 x1 : FVec Ideal S8192x128 .f32) (x2 : IVec S8192 32) (i : S_.Idx) :
    val_main_v23 (F := Ideal) x0 x1 x2 i
      = ∑ a : Fin 8192, ∑ b : Fin 8192, dot (nrm x0) (nrm x1) a b * ind x2 a b := by
  rw [val_main_v23_apply, val_main_cst_3_apply, ValueIdx.sum_idx2]
  simp only [val_main_v22_apply, v10_eq, v19_eq]
  rw [Ideal.ofBits_def, Ideal.ofBits_zero_f32, zero_add]
  rfl

theorem idx_tr (a b : Fin 8192) : idx_main_v26 (ix2 a b) = ix2 b a :=
  funext fun d => by match d with | ⟨0, _⟩ => rfl | ⟨1, _⟩ => rfl

/-- The weighted inner products of the transposed table summed over the whole table. -/
theorem v28_eq (x0 x1 : FVec Ideal S8192x128 .f32) (x2 : IVec S8192 32) (i : S_.Idx) :
    val_main_v28 (F := Ideal) x0 x1 x2 i
      = ∑ a : Fin 8192, ∑ b : Fin 8192, dot (nrm x0) (nrm x1) b a * ind x2 a b := by
  rw [val_main_v28_apply, val_main_cst_4_apply, ValueIdx.sum_idx2]
  simp only [val_main_v27_apply, val_main_v26_apply, idx_tr, v10_eq, v19_eq]
  rw [Ideal.ofBits_def, Ideal.ofBits_zero_f32, zero_add]
  rfl

/-! ## The result -/

/-- The reference's result, at its one index, is the loss of the normalised rows summed over the whole pair table. -/
theorem result_eq (ps zs : FVec Ideal S8192x128 .f32) (tg : IVec S8192 32) :
    val_main_v32 (F := Ideal) ps zs tg = fun _ => refLoss (nrm ps) (nrm zs) tg := by
  funext i
  rw [val_main_v32_apply, val_main_cst_5_apply, val_main_v31_apply, val_main_v25_apply, val_main_v30_apply,
    val_main_v24_apply, val_main_v29_apply, v21_eq, v23_eq, v28_eq]
  rfl

/-! ## The run -/

/-- Every weakly fair execution of the reference terminates with the loss of the normalised arguments as its result
    and the three arguments unchanged. -/
theorem run_loss (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v32)
        = (fun _ => refLoss (nrm (m ((c.tc : Thread nD τ).loc main_arg0))) (nrm (m ((c.tc : Thread nD τ).loc main_arg1)))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun _ h c => ⟨(h c).1.trans ((val_main_v32_eq m c).trans (result_eq _ _ _)), (h c).2⟩)
    (Cert.ReferenceIdeal.Value.run (F := Ideal) m ρ)

end Cert.ReferenceIdeal.RefValue

end
-- ==== Proof.Algebra.lean ====
/-
  Pure algebra on the extended reals: the tile-by-tile accumulation of the pair loss is the loss summed over the
  whole pair table at once, and normalising a row of reals gives a row of reals.

  Three steps. The 256 tiles added one after the other are the double sum over the 16 × 16 tile bands (addition on the
  extended reals is commutative and associative, so the order is immaterial). A tile band `p` and an offset `a` inside
  it name the row `512 p + a`, a bijection of `16 × 512` pairs with the 8192 rows, so the tile sums add up to the sum
  over all pairs of rows. Finally, with every inner product a real number and every weight `0` or `1`, both forms of
  the loss are the same real number.
-/
import proofs.«125551_j8486855377129_1_alg».proof.Proof.Spec

noncomputable section

open scoped BigOperators
open Idealize.ShloMosaic Idealize.ShloMosaic.ValueIdx

namespace Cert.PairLoss

/-! ## The accumulation over the grid is the double sum over the tile bands -/

/-- Grid position `16 p + q` lies in row band `p` and column band `q`. -/
theorem band_finProd (p q : Fin 16) :
    bandP (finProdFinEquiv (p, q) : Fin (16 * 16)).val = p ∧ bandQ (finProdFinEquiv (p, q) : Fin (16 * 16)).val = q := by
  constructor
  · apply Fin.ext
    show (q.val + 16 * p.val) / 16 % 16 = p.val
    omega
  · apply Fin.ext
    show (q.val + 16 * p.val) % 16 = q.val
    omega

/-- A sum over the 256 grid positions in order is the double sum over the bands. -/
theorem sum_grid {M : Type*} [AddCommMonoid M] (f : Fin 16 → Fin 16 → M) :
    ∑ k ∈ Finset.range 256, f (bandP k) (bandQ k) = ∑ p : Fin 16, ∑ q : Fin 16, f p q := by
  rw [← Fintype.sum_prod_type', Finset.sum_range fun k => f (bandP k) (bandQ k)]
  symm
  refine Fintype.sum_equiv (finProdFinEquiv : Fin 16 × Fin 16 ≃ Fin 256) _ _ ?_
  rintro ⟨p, q⟩
  obtain ⟨h1, h2⟩ := band_finProd p q
  show f p q = f (bandP _) (bandQ _)
  rw [h1, h2]

/-- The running weighted sum after position `n` is the sum of the tiles at positions `0 … n`. -/
theorem accSum_eq_sum (pn zn : Rows) (tg : Labels) (n : ℕ) :
    accSum pn zn tg n = ∑ k ∈ Finset.range (n + 1), tileSum pn zn tg (bandP k) (bandQ k) := by
  induction n with
  | zero => rw [accSum, zero_add, Finset.sum_range_one]
  | succ n ih => rw [accSum, ih, Finset.sum_range_succ _ (n + 1)]

/-- The running pair count after position `n` is the sum of the tile counts at positions `0 … n`. -/
theorem accCnt_eq_sum (tg : Labels) (n : ℕ) :
    accCnt tg n = ∑ k ∈ Finset.range (n + 1), tileCnt tg (bandP k) (bandQ k) := by
  induction n with
  | zero => rw [accCnt, zero_add, Finset.sum_range_one]
  | succ n ih => rw [accCnt, ih, Finset.sum_range_succ _ (n + 1)]

/-! ## The tiles cover the pair table -/

/-- Band `p`, offset `a` is row `512 p + a`: the pairs (band, offset) are in bijection with the rows. -/
theorem sum_row {M : Type*} [AddCommMonoid M] (g : Fin 8192 → M) :
    ∑ p : Fin 16, ∑ a : Fin 512, g (row p a) = ∑ i : Fin 8192, g i := by
  rw [← Fintype.sum_prod_type']
  refine Fintype.sum_equiv (finProdFinEquiv : Fin 16 × Fin 512 ≃ Fin 8192) _ _ ?_
  rintro ⟨p, a⟩
  show g (row p a) = g _
  congr 1
  apply Fin.ext
  show p.val * 512 + a.val = a.val + 512 * p.val
  omega

/-- Summing a function of a pair of rows tile by tile is summing it over all pairs of rows. -/
theorem sum_tiles {M : Type*} [AddCommMonoid M] (F : Fin 8192 → Fin 8192 → M) :
    ∑ p : Fin 16, ∑ q : Fin 16, ∑ a : Fin 512, ∑ b : Fin 512, F (row p a) (row q b) = ∑ i : Fin 8192, ∑ j : Fin 8192, F i j := by
  rw [← sum_row fun i => ∑ j : Fin 8192, F i j]
  refine Finset.sum_congr rfl fun p _ => ?_
  rw [Finset.sum_comm]
  refine Finset.sum_congr rfl fun a _ => ?_
  exact sum_row fun j => F (row p a) j

/-- The total after all 256 tiles: the weighted sum over all pairs of rows. -/
theorem accSum_total (pn zn : Rows) (tg : Labels) :
    accSum pn zn tg 255 = ∑ i : Fin 8192, ∑ j : Fin 8192, ind tg i j * (dot pn zn i j + dot zn pn i j) := by
  rw [accSum_eq_sum, sum_grid fun p q => tileSum pn zn tg p q]
  exact sum_tiles fun i j => ind tg i j * (dot pn zn i j + dot zn pn i j)

/-- The count after all 256 tiles: the number of pairs. -/
theorem accCnt_total (tg : Labels) :
    accCnt tg 255 = ∑ i : Fin 8192, ∑ j : Fin 8192, ind tg i j := by
  rw [accCnt_eq_sum, sum_grid fun p q => tileCnt tg p q]
  exact sum_tiles fun i j => ind tg i j

/-! ## The constants -/

/-- The word `0x3F800000` is `1`. -/
theorem ofBits_one : Ideal.ofBits .f32 0x3F800000#32 = 1 := by
  simp [Ideal.ofBits, Ideal.ieee, -EReal.coe_mul]; norm_num

/-- The word `0x3F000000` is `1/2`. -/
theorem ofBits_half : Ideal.ofBits .f32 0x3F000000#32 = ((1 / 2 : ℝ) : EReal) := by
  simp [Ideal.ofBits, Ideal.ieee, -EReal.coe_mul]; norm_num

/-- The word `0xBF000000` is `-1/2`. -/
theorem ofBits_neg_half : Ideal.ofBits .f32 0xBF000000#32 = ((-(1 / 2) : ℝ) : EReal) := by
  simp [Ideal.ofBits, Ideal.ieee, -EReal.coe_mul]; norm_num

/-- The word `0x322BCC77` (about `1e-8`) is a positive real. -/
theorem ofBits_eps : ∃ r : ℝ, 0 < r ∧ Ideal.ofBits .f32 0x322BCC77#32 = (r : EReal) := by
  simp [Ideal.ofBits, Ideal.ieee, -EReal.coe_mul]

/-! ## Real numbers among the extended reals -/

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A finite sum of reals is a real. -/
theorem real_sum {ι : Type*} (s : Finset ι) (f : ι → EReal) (h : ∀ i ∈ s, ∃ r : ℝ, f i = (r : EReal)) :
    ∃ r : ℝ, ∑ i ∈ s, f i = (r : EReal) :=
  Finset.sum_induction f (fun x => ∃ r : ℝ, x = (r : EReal)) (fun _ _ => real_add) ⟨0, rfl⟩ h

/-- A weight is `0` or `1`, a real. -/
theorem ind_real (tg : Labels) (i j : Fin 8192) : ∃ r : ℝ, ind tg i j = (r : EReal) := by
  unfold ind
  split_ifs
  · exact ⟨1, rfl⟩
  · exact ⟨0, rfl⟩

/-- An inner product of rows of reals is a real. -/
theorem dot_real (x y : Rows) (hx : ∀ j, ∃ r : ℝ, x j = (r : EReal)) (hy : ∀ j, ∃ r : ℝ, y j = (r : EReal))
    (i j : Fin 8192) : ∃ r : ℝ, dot x y i j = (r : EReal) :=
  real_sum _ _ fun _ _ => real_mul (hx _) (hy _)

/-! ## The two forms of the loss -/

/-- A weight, being `0` or `1`, distributes over a sum of extended reals. -/
theorem ind_mul_add (tg : Labels) (i j : Fin 8192) (x y : EReal) :
    ind tg i j * (x + y) = x * ind tg i j + y * ind tg i j := by
  unfold ind
  split_ifs <;> simp

/-- The inner product is symmetric in its two rows. -/
theorem dot_comm (x y : Rows) (i j : Fin 8192) : dot x y i j = dot y x j i := by
  unfold dot
  exact Finset.sum_congr rfl fun d _ => mul_comm _ _

/-- The accumulated weighted sum is the sum of the two directed totals. -/
theorem accSum_split (pn zn : Rows) (tg : Labels) :
    accSum pn zn tg 255
      = (∑ i : Fin 8192, ∑ j : Fin 8192, dot pn zn i j * ind tg i j)
        + ∑ i : Fin 8192, ∑ j : Fin 8192, dot pn zn j i * ind tg i j := by
  rw [accSum_total]
  simp only [ind_mul_add, Finset.sum_add_distrib, dot_comm zn pn]

/-- With real totals `s₁`, `s₂` and a real count `c`: `(-1/2 · (s₁ + s₂)) / max c 1` is
    `1/2 · ((-s₁) / max c 1 + (-s₂) / max c 1)`, both being one real number since `max c 1 ≠ 0`. -/
theorem lossOf_real (s₁ s₂ c : ℝ) :
    lossOf ((s₁ : EReal) + (s₂ : EReal)) (c : EReal)
      = Ideal.ofBits .f32 0x3F000000#32
        * (Ideal.div (-(s₁ : EReal)) (max (c : EReal) (Ideal.ofBits .f32 0x3F800000#32))
          + Ideal.div (-(s₂ : EReal)) (max (c : EReal) (Ideal.ofBits .f32 0x3F800000#32))) := by
  have hmax : max (c : EReal) (Ideal.ofBits .f32 0x3F800000#32) = ((max c 1 : ℝ) : EReal) := by
    rw [ofBits_one, ← EReal.coe_one]
    exact (EReal.coe_strictMono.monotone.map_max).symm
  have hne : max c 1 ≠ 0 := ne_of_gt (lt_of_lt_of_le one_pos (le_max_right c 1))
  unfold lossOf
  rw [hmax, Ideal.div_coe hne, Ideal.div_coe hne, Ideal.div_coe hne, ofBits_neg_half, ofBits_half]
  simp only [← EReal.coe_add, ← EReal.coe_mul, ← EReal.coe_neg]
  congr 1
  ring

/-- The loss accumulated tile by tile is the loss over the whole pair table, when every entry of the
    normalised rows is a real number. -/
theorem loss_eq_refLoss (pn zn : Rows) (tg : Labels) (hp : ∀ j, ∃ r : ℝ, pn j = (r : EReal))
    (hz : ∀ j, ∃ r : ℝ, zn j = (r : EReal)) : loss pn zn tg = refLoss pn zn tg := by
  obtain ⟨s₁, h₁⟩ : ∃ r : ℝ, (∑ i : Fin 8192, ∑ j : Fin 8192, dot pn zn i j * ind tg i j) = (r : EReal) :=
    real_sum _ _ fun i _ => real_sum _ _ fun j _ => real_mul (dot_real pn zn hp hz i j) (ind_real tg i j)
  obtain ⟨s₂, h₂⟩ : ∃ r : ℝ, (∑ i : Fin 8192, ∑ j : Fin 8192, dot pn zn j i * ind tg i j) = (r : EReal) :=
    real_sum _ _ fun i _ => real_sum _ _ fun j _ => real_mul (dot_real pn zn hp hz j i) (ind_real tg i j)
  obtain ⟨c, hc⟩ : ∃ r : ℝ, (∑ i : Fin 8192, ∑ j : Fin 8192, ind tg i j) = (r : EReal) :=
    real_sum _ _ fun i _ => real_sum _ _ fun j _ => ind_real tg i j
  unfold loss refLoss refPairs
  rw [accSum_split, accCnt_total, h₁, h₂, hc]
  exact lossOf_real s₁ s₂ c

/-! ## Normalising a row of reals -/

/-- The clamped norm of a row of reals is a nonzero real: the square root of a real is a real or `⊥`, and
    its maximum with the positive constant is a real at least that constant. -/
theorem nrmDen_real (x : Rows) (hx : ∀ j, ∃ r : ℝ, x j = (r : EReal)) (i : Fin 8192) :
    ∃ m : ℝ, m ≠ 0 ∧ nrmDen x i = (m : EReal) := by
  obtain ⟨e, he, heps⟩ := ofBits_eps
  obtain ⟨s, hs⟩ : ∃ r : ℝ, (∑ d : Fin 128, x (ix2 i d) * x (ix2 i d)) = (r : EReal) :=
    real_sum _ _ fun d _ => real_mul (hx _) (hx _)
  unfold nrmDen
  rw [Ideal.ofBits_zero_f32, zero_add, hs, heps, Ideal.sqrt_coe]
  split_ifs with hneg
  · exact ⟨e, ne_of_gt he, max_eq_right bot_le⟩
  · exact ⟨max (Real.sqrt s) e, ne_of_gt (lt_of_lt_of_le he (le_max_right _ _)),
      (EReal.coe_strictMono.monotone.map_max).symm⟩

/-- A row of reals divided by its clamped norm is a row of reals. -/
theorem nrm_real (x : Rows) (hx : ∀ j, ∃ r : ℝ, x j = (r : EReal)) : ∀ j, ∃ r : ℝ, nrm x j = (r : EReal) := by
  intro j
  obtain ⟨m, hm, hden⟩ := nrmDen_real x hx (j 0)
  obtain ⟨a, ha⟩ := hx j
  refine ⟨a * (1 / m), ?_⟩
  show Ideal.div (x j) (nrmDen x (j 0)) = _
  rw [hden, Ideal.div_coe hm, ha, ← EReal.coe_mul]

end Cert.PairLoss

end
-- ==== Proof.Finite.lean ====
/-
  From the precondition to real entries: when every input passes `|x| < +∞`, every input is a real number.
-/
import proofs.«125551_j8486855377129_1_alg».proof.Pre_finite_inputs
import proofs.«125551_j8486855377129_1_alg».proof.Proof.Spec
import Idealize.ShloMosaic.Lib.ReduceAll

noncomputable section

open Idealize.ShloMosaic Idealize.ShloMosaic.ValueIdx

namespace Cert.PairLoss

/-- The result shape of a reduction over every axis has one index. -/
instance : Subsingleton Cert.Pre_finite_inputs.S_.Idx := ⟨fun a b => funext fun d => d.elim0⟩

/-- The word `0x7F800000` is `+∞`. -/
theorem ofBits_inf : Ideal.ofBits .f32 0x7F800000#32 = ⊤ := by
  simp [Ideal.ofBits, Ideal.ieee]

/-- An extended real whose absolute value `max x (-x)` is below `+∞` is a real number:
    at `-∞` and at `+∞` the absolute value is `+∞`. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` holding (the word `1`) makes `x` a real number. -/
theorem real_of_cmp (x : EReal)
    (h : Ideal.cmp .olt (max x (-x)) (Ideal.ofBits .f32 0x7F800000#32) = 1#1) : ∃ r : ℝ, x = (r : EReal) := by
  rw [ofBits_inf] at h
  apply real_of_abs_lt_top
  by_contra hn
  simp [Ideal.cmp, hn] at h

/-- Under the precondition — every entry of both float inputs passes `|x| < +∞` — every entry of both is a real number. -/
theorem entries_real [Cert.Pre_finite_inputs.Facts] (ps zs : FVec Ideal Cert.Pre_finite_inputs.S8192x128 .f32)
    (tg : IVec Cert.Pre_finite_inputs.S8192 32)
    (h : Cert.Pre_finite_inputs.fn (F := Ideal) ps zs tg = fun _ => 1#1) :
    (∀ j, ∃ r : ℝ, ps j = (r : EReal)) ∧ (∀ j, ∃ r : ℝ, zs j = (r : EReal)) := by
  have h0 := congrFun h ValueIdx.ix0
  dsimp only [Cert.Pre_finite_inputs.fn] at h0
  obtain ⟨ha, hb⟩ := IntOp.andi_eq_one.1 h0
  exact ⟨fun j => real_of_cmp (ps j) (Host.reduce_andi_all _ _ _ _ _ ha j),
    fun j => real_of_cmp (zs j) (Host.reduce_andi_all _ _ _ _ _ hb j)⟩

end Cert.PairLoss

end
-- ==== Proof.lean ====
/-
  The certificate. The kernel computes, tile by tile over a 16 × 16 grid of 512 × 512 tiles, the sum over pairs
  `i < j` with equal labels of `⟨pn i, zn j⟩ + ⟨zn i, pn j⟩` and the number of such pairs, and returns
  `(-1/2 · sum) / max count 1`; the reference sums `⟨pn i, zn j⟩` and `⟨pn j, zn i⟩` over the whole pair table, divides
  each negated sum by `max count 1` and averages. On the extended reals the two agree because every entry of the
  normalised rows is a real number when the inputs are finite (a real divided by a positive real), so the sums are real
  and the real field's laws apply. The three frames: each program runs to the end, faults nowhere and leaves its argument
  arrays as launched (the kernel programs through the run of their host lines and their region, in which two windows read
  each normalised array at half shares; the reference through its run). The idealization rewrote no operation.
-/
import proofs.«125551_j8486855377129_1_alg».proof.Defs
import proofs.«125551_j8486855377129_1_alg».proof.Proof.Gen.Kernel
import proofs.«125551_j8486855377129_1_alg».proof.Proof.Gen.KernelIdeal
import proofs.«125551_j8486855377129_1_alg».proof.Proof.Gen.ReferenceIdeal
import proofs.«125551_j8486855377129_1_alg».proof.Proof.Gen.Pre_finite_inputs
import proofs.«125551_j8486855377129_1_alg».proof.Proof.Kernel.Run
import proofs.«125551_j8486855377129_1_alg».proof.Proof.KernelIdeal.Loss
import proofs.«125551_j8486855377129_1_alg».proof.Proof.RefLoss
import proofs.«125551_j8486855377129_1_alg».proof.Proof.Algebra
import proofs.«125551_j8486855377129_1_alg».proof.Proof.Finite
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Run.frame (F := Bits) m ρ

/-- The idealized kernel runs and keeps its arguments. -/
theorem frame_ki : Cert.frame_KernelIdeal := fun m ρ _ => Cert.KernelIdeal.Run.frame (F := Ideal) m ρ

/-- The idealized reference runs and keeps its arguments. -/
theorem frame_ri : Cert.frame_ReferenceIdeal := fun m ρ _ =>
  (θ_run Cert.ReferenceIdeal.defs _ _).mono (fun _ h c => (h c).2) (Cert.ReferenceIdeal.RefValue.run_loss m ρ)

/-- Both idealized programs end with the same loss: the kernel's tile-by-tile form and the reference's whole-table form
    agree on real entries, and finite inputs normalise to real entries. -/
theorem algebraic : Cert.algebraic_KernelIdeal_ReferenceIdeal := by
  intro m ρ m' ρ' hpre hagree
  refine ⟨fun c => (fun _ => Cert.PairLoss.loss (Cert.PairLoss.nrm (Cert.KernelIdeal.Loss.ps m c)) (Cert.PairLoss.nrm (Cert.KernelIdeal.Loss.zs m c)) (Cert.KernelIdeal.Loss.tg m c)),
    Cert.KernelIdeal.Loss.run_loss m ρ, ?_⟩
  refine (θ_run Cert.ReferenceIdeal.defs _ _).mono (fun _ h c => ⟨(h c).1.trans ?_, (h c).2⟩) (Cert.ReferenceIdeal.RefValue.run_loss m' ρ')
  rw [(hagree c).1, (hagree c).2.1, (hagree c).2.2]
  obtain ⟨hp, hz⟩ := Cert.PairLoss.entries_real _ _ _ (hpre c)
  exact funext fun _ => (Cert.PairLoss.loss_eq_refLoss _ _ _ (Cert.PairLoss.nrm_real _ hp) (Cert.PairLoss.nrm_real _ hz)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
